-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v72)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v72) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S102400x128 : Shape := ⟨2, ![102400, 128]⟩
abbrev S4096x128 : Shape := ⟨2, ![4096, 128]⟩
abbrev S1700000x128 : Shape := ⟨2, ![1700000, 128]⟩
abbrev S1x128 : Shape := ⟨2, ![1, 128]⟩

abbrev nBuf : Space → Nat
  | .hbm => 101
  | .vmem => 10
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S100000, .i32⟩
  | .hbm, ⟨11, _⟩ => ⟨S1700000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S_, .i32⟩
  | .hbm, ⟨47, _⟩ => ⟨S_, .f32⟩
  | .hbm, ⟨48, _⟩ => ⟨S102400x128, .f32⟩
  | .hbm, ⟨49, _⟩ => ⟨S102400x128, .bf16⟩
  | .hbm, ⟨50, _⟩ => ⟨S128x128, .bf16⟩
  | .hbm, ⟨51, _⟩ => ⟨S102400x128, .f32⟩
  | .hbm, ⟨52, _⟩ => ⟨S100000x128, .f32⟩
  | .hbm, ⟨53, _⟩ => ⟨S_, .i32⟩
  | .hbm, ⟨54, _⟩ => ⟨S1700000, .i32⟩
  | .hbm, ⟨55, _⟩ => ⟨S1700000, .i1⟩
  | .hbm, ⟨56, _⟩ => ⟨S_, .i32⟩
  | .hbm, ⟨57, _⟩ => ⟨S1700000, .i32⟩
  | .hbm, ⟨58, _⟩ => ⟨S1700000, .i32⟩
  | .hbm, ⟨59, _⟩ => ⟨S1700000, .i32⟩
  | .hbm, ⟨60, _⟩ => ⟨S1700000x1, .i32⟩
  | .hbm, ⟨61, _⟩ => ⟨S1700000x128, .f32⟩
  | .hbm, ⟨62, _⟩ => ⟨S1700000x1, .f32⟩
  | .hbm, ⟨63, _⟩ => ⟨S1700000x128, .f32⟩
  | .hbm, ⟨64, _⟩ => ⟨S1700000x128, .f32⟩
  | .hbm, ⟨65, _⟩ => ⟨S_, .f32⟩
  | .hbm, ⟨66, _⟩ => ⟨S100000x128, .f32⟩
  | .hbm, ⟨67, _⟩ => ⟨S1700000x1, .i32⟩
  | .hbm, ⟨68, _⟩ => ⟨S100000x128, .f32⟩
  | .hbm, ⟨69, _⟩ => ⟨S1x128, .f32⟩
  | .hbm, ⟨70, _⟩ => ⟨S100000x128, .f32⟩
  | .hbm, ⟨71, _⟩ => ⟨S100000x128, .f32⟩
  | .hbm, ⟨72, _⟩ => ⟨S_, .f32⟩
  | .hbm, ⟨73, _⟩ => ⟨S100000x128, .f32⟩
  | .hbm, ⟨74, _⟩ => ⟨S100000x128, .f32⟩
  | .hbm, ⟨75, _⟩ => ⟨S_, .i32⟩
  | .hbm, ⟨76, _⟩ => ⟨S_, .f32⟩
  | .hbm, ⟨77, _⟩ => ⟨S102400x128, .f32⟩
  | .hbm, ⟨78, _⟩ => ⟨S102400x128, .bf16⟩
  | .hbm, ⟨79, _⟩ => ⟨S128x128, .bf16⟩
  | .hbm, ⟨80, _⟩ => ⟨S102400x128, .f32⟩
  | .hbm, ⟨81, _⟩ => ⟨S100000x128, .f32⟩
  | .hbm, ⟨82, _⟩ => ⟨S_, .i32⟩
  | .hbm, ⟨83, _⟩ => ⟨S1700000, .i32⟩
  | .hbm, ⟨84, _⟩ => ⟨S1700000, .i1⟩
  | .hbm, ⟨85, _⟩ => ⟨S_, .i32⟩
  | .hbm, ⟨86, _⟩ => ⟨S1700000, .i32⟩
  | .hbm, ⟨87, _⟩ => ⟨S1700000, .i32⟩
  | .hbm, ⟨88, _⟩ => ⟨S1700000, .i32⟩
  | .hbm, ⟨89, _⟩ => ⟨S1700000x1, .i32⟩
  | .hbm, ⟨90, _⟩ => ⟨S1700000x128, .f32⟩
  | .hbm, ⟨91, _⟩ => ⟨S1700000x1, .f32⟩
  | .hbm, ⟨92, _⟩ => ⟨S1700000x128, .f32⟩
  | .hbm, ⟨93, _⟩ => ⟨S1700000x128, .f32⟩
  | .hbm, ⟨94, _⟩ => ⟨S_, .f32⟩
  | .hbm, ⟨95, _⟩ => ⟨S100000x128, .f32⟩
  | .hbm, ⟨96, _⟩ => ⟨S1700000x1, .i32⟩
  | .hbm, ⟨97, _⟩ => ⟨S100000x128, .f32⟩
  | .hbm, ⟨98, _⟩ => ⟨S1x128, .f32⟩
  | .hbm, ⟨99, _⟩ => ⟨S100000x128, .f32⟩
  | .hbm, ⟨100, _⟩ => ⟨S100000x128, .f32⟩
  | .local _ .vmem, ⟨0, _⟩ => ⟨S4096x128, .bf16⟩
  | .local _ .vmem, ⟨1, _⟩ => ⟨S4096x128, .bf16⟩
  | .local _ .vmem, ⟨2, _⟩ => ⟨S128x128, .bf16⟩
  | .local _ .vmem, ⟨3, _⟩ => ⟨S4096x128, .f32⟩
  | .local _ .vmem, ⟨4, _⟩ => ⟨S4096x128, .f32⟩
  | .local _ .vmem, ⟨5, _⟩ => ⟨S4096x128, .bf16⟩
  | .local _ .vmem, ⟨6, _⟩ => ⟨S4096x128, .bf16⟩
  | .local _ .vmem, ⟨7, _⟩ => ⟨S128x128, .bf16⟩
  | .local _ .vmem, ⟨8, _⟩ => ⟨S4096x128, .f32⟩
  | .local _ .vmem, ⟨9, _⟩ => ⟨S4096x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_c_6 : Ref sig .tc := ⟨.hbm, 46, rfl⟩
abbrev main_call1_v0 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_c_7 : Ref sig .tc := ⟨.hbm, 53, rfl⟩
abbrev main_v35 : Ref sig .tc := ⟨.hbm, 54, rfl⟩
abbrev main_v36 : Ref sig .tc := ⟨.hbm, 55, rfl⟩
abbrev main_c_8 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_9 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_call2_cst : Ref sig .tc := ⟨.hbm, 72, rfl⟩
abbrev main_call2_v0 : Ref sig .tc := ⟨.hbm, 73, rfl⟩
abbrev main_v51 : Ref sig .tc := ⟨.hbm, 74, rfl⟩
abbrev main_c_10 : Ref sig .tc := ⟨.hbm, 75, rfl⟩
abbrev main_call3_v0 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_c_11 : Ref sig .tc := ⟨.hbm, 82, rfl⟩
abbrev main_v57 : Ref sig .tc := ⟨.hbm, 83, rfl⟩
abbrev main_v58 : Ref sig .tc := ⟨.hbm, 84, rfl⟩
abbrev main_c_12 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_cst_13 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4096x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S4096x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  pads_S100000x128_S102400x128_024000_000 : S100000x128.Pads (![0, 0] : Fin 2 → Nat) ![2400, 0] ![0, 0] S102400x128
  h_S_ : 0 < S_.numel
  bitsLt_bf16_f32 : FTy.bits .bf16 < FTy.bits .f32
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  slices_S102400x128_S100000x128_0_0 : S102400x128.Slices ![0, 0] S100000x128
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S4096x128_S128x128_S4096x128_1_0_0_1_n_n_wf : DotDims.WF S4096x128 S128x128 S4096x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S102400x128.size a
  hwx0_0 : ∀ i : grid0.Coords, EltTy.bits .bf16 = 32 ∨ (Rect.block (s := S102400x128) S4096x128.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .bf16 = 32 ∨ (Rect.block (s := S128x128) S128x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x128.size a ≤ S102400x128.size a
  hwx0_2 : ∀ i : grid0.Coords, EltTy.bits .f32 = 32 ∨ (Rect.block (s := S102400x128) S4096x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4096x128.size a ≤ S102400x128.size a
  hwx1_0 : ∀ i : grid1.Coords, EltTy.bits .bf16 = 32 ∨ (Rect.block (s := S102400x128) S4096x128.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .bf16 = 32 ∨ (Rect.block (s := S128x128) S128x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4096x128.size a ≤ S102400x128.size a
  hwx1_2 : ∀ i : grid1.Coords, EltTy.bits .f32 = 32 ∨ (Rect.block (s := S102400x128) S4096x128.size (cc1_transform_2 i) (hinb1_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

abbrev win0_0 : Pipeline.Window sig grid0 :=
  Pipeline.Window.ofSpec (Memref.whole main_v31) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v32) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v33) S4096x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v53) S4096x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v54) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v55) S4096x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩

abbrev nBuf : Space → Nat
  | .hbm => 108
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000x128, .f32⟩
  | .hbm, ⟨28, _⟩ => ⟨S_, .i32⟩
  | .hbm, ⟨29, _⟩ => ⟨S1700000, .i32⟩
  | .hbm, ⟨30, _⟩ => ⟨S1700000, .i1⟩
  | .hbm, ⟨31, _⟩ => ⟨S_, .i32⟩
  | .hbm, ⟨32, _⟩ => ⟨S1700000, .i32⟩
  | .hbm, ⟨33, _⟩ => ⟨S1700000, .i32⟩
  | .hbm, ⟨34, _⟩ => ⟨S1700000, .i32⟩
  | .hbm, ⟨35, _⟩ => ⟨S1700000x1, .i32⟩
  | .hbm, ⟨36, _⟩ => ⟨S1700000, .f32⟩
  | .hbm, ⟨37, _⟩ => ⟨S_, .i32⟩
  | .hbm, ⟨38, _⟩ => ⟨S1700000, .i32⟩
  | .hbm, ⟨39, _⟩ => ⟨S1700000, .i1⟩
  | .hbm, ⟨40, _⟩ => ⟨S_, .i32⟩
  | .hbm, ⟨41, _⟩ => ⟨S1700000, .i32⟩
  | .hbm, ⟨42, _⟩ => ⟨S1700000, .i32⟩
  | .hbm, ⟨43, _⟩ => ⟨S1700000, .i32⟩
  | .hbm, ⟨44, _⟩ => ⟨S1700000x1, .i32⟩
  | .hbm, ⟨45, _⟩ => ⟨S1700000, .f32⟩
  | .hbm, ⟨46, _⟩ => ⟨S1700000, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x128, .f32⟩
  | .hbm, ⟨56, _⟩ => ⟨S1700000x1, .f32⟩
  | .hbm, ⟨57, _⟩ => ⟨S1700000x128, .f32⟩
  | .hbm, ⟨58, _⟩ => ⟨S1700000x128, .f32⟩
  | .hbm, ⟨59, _⟩ => ⟨S_, .f32⟩
  | .hbm, ⟨60, _⟩ => ⟨S100000x128, .f32⟩
  | .hbm, ⟨61, _⟩ => ⟨S1700000x1, .i32⟩
  | .hbm, ⟨62, _⟩ => ⟨S100000x128, .f32⟩
  | .hbm, ⟨63, _⟩ => ⟨S1x128, .f32⟩
  | .hbm, ⟨64, _⟩ => ⟨S100000x128, .f32⟩
  | .hbm, ⟨65, _⟩ => ⟨S100000x128, .f32⟩
  | .hbm, ⟨66, _⟩ => ⟨S_, .f32⟩
  | .hbm, ⟨67, _⟩ => ⟨S100000x128, .f32⟩
  | .hbm, ⟨68, _⟩ => ⟨S100000x128, .f32⟩
  | .hbm, ⟨69, _⟩ => ⟨S100000x128, .f32⟩
  | .hbm, ⟨70, _⟩ => ⟨S_, .i32⟩
  | .hbm, ⟨71, _⟩ => ⟨S1700000, .i32⟩
  | .hbm, ⟨72, _⟩ => ⟨S1700000, .i1⟩
  | .hbm, ⟨73, _⟩ => ⟨S_, .i32⟩
  | .hbm, ⟨74, _⟩ => ⟨S1700000, .i32⟩
  | .hbm, ⟨75, _⟩ => ⟨S1700000, .i32⟩
  | .hbm, ⟨76, _⟩ => ⟨S1700000, .i32⟩
  | .hbm, ⟨77, _⟩ => ⟨S1700000x1, .i32⟩
  | .hbm, ⟨78, _⟩ => ⟨S1700000, .f32⟩
  | .hbm, ⟨79, _⟩ => ⟨S_, .i32⟩
  | .hbm, ⟨80, _⟩ => ⟨S1700000, .i32⟩
  | .hbm, ⟨81, _⟩ => ⟨S1700000, .i1⟩
  | .hbm, ⟨82, _⟩ => ⟨S_, .i32⟩
  | .hbm, ⟨83, _⟩ => ⟨S1700000, .i32⟩
  | .hbm, ⟨84, _⟩ => ⟨S1700000, .i32⟩
  | .hbm, ⟨85, _⟩ => ⟨S1700000, .i32⟩
  | .hbm, ⟨86, _⟩ => ⟨S1700000x1, .i32⟩
  | .hbm, ⟨87, _⟩ => ⟨S1700000, .f32⟩
  | .hbm, ⟨88, _⟩ => ⟨S1700000, .f32⟩
  | .hbm, ⟨89, _⟩ => ⟨S_, .i32⟩
  | .hbm, ⟨90, _⟩ => ⟨S1700000, .i32⟩
  | .hbm, ⟨91, _⟩ => ⟨S1700000, .i1⟩
  | .hbm, ⟨92, _⟩ => ⟨S_, .i32⟩
  | .hbm, ⟨93, _⟩ => ⟨S1700000, .i32⟩
  | .hbm, ⟨94, _⟩ => ⟨S1700000, .i32⟩
  | .hbm, ⟨95, _⟩ => ⟨S1700000, .i32⟩
  | .hbm, ⟨96, _⟩ => ⟨S1700000x1, .i32⟩
  | .hbm, ⟨97, _⟩ => ⟨S1700000x128, .f32⟩
  | .hbm, ⟨98, _⟩ => ⟨S1700000x1, .f32⟩
  | .hbm, ⟨99, _⟩ => ⟨S1700000x128, .f32⟩
  | .hbm, ⟨100, _⟩ => ⟨S1700000x128, .f32⟩
  | .hbm, ⟨101, _⟩ => ⟨S_, .f32⟩
  | .hbm, ⟨102, _⟩ => ⟨S100000x128, .f32⟩
  | .hbm, ⟨103, _⟩ => ⟨S1700000x1, .i32⟩
  | .hbm, ⟨104, _⟩ => ⟨S100000x128, .f32⟩
  | .hbm, ⟨105, _⟩ => ⟨S1x128, .f32⟩
  | .hbm, ⟨106, _⟩ => ⟨S100000x128, .f32⟩
  | .hbm, ⟨107, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_c_11 : Ref sig .tc := ⟨.hbm, 79, rfl⟩
abbrev main_v56 : Ref sig .tc := ⟨.hbm, 80, rfl⟩
abbrev main_v57 : Ref sig .tc := ⟨.hbm, 81, rfl⟩
abbrev main_c_12 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_c_13 : Ref sig .tc := ⟨.hbm, 89, rfl⟩
abbrev main_v64 : Ref sig .tc := ⟨.hbm, 90, rfl⟩
abbrev main_v65 : Ref sig .tc := ⟨.hbm, 91, rfl⟩
abbrev main_c_14 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_cst_15 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  scatter_S100000_S1700000x1_S1700000_n_0_0_1_wf : ScatterDims.WF S100000 S1700000x1 S1700000 [] [0] [0] 1
  dot_S100000x128_S128x128_S100000x128_1_0_0_1_n_n_wf : DotDims.WF S100000x128 S128x128 S100000x128 [1] [0] [0] [1] [] []
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

class Facts : Prop extends Facts₀ where

variable [Facts]
-- ==== Proof.KernelRun.lean ====
import proofs.«136382_j23210003267827_1_alg».proof.Proof.Gen.KernelIdeal.Frame

/-!
# The kernel program's run, with its result named

Every weakly fair execution of the two-matmul program terminates without a fault; at the end the result
buffer holds what the fold of the host stretches and of the two regions' write-backs leaves there (`W13`
read at the result buffer), and the six argument arrays are as launched. The host side and the regions
are the same segments as in the frame statement; only what is read off the final state differs: the
result buffer is unscoped, so the final state agrees with the last boundary's contents on it.
-/

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of the whole program: the result buffer ends at the last boundary's contents, the arguments
    end as launched. -/
theorem run_out : θ_run defs (onTc (τ := τ) (main (F := F))) ⟨m, fun _ => 0, ρ⟩ (fun r => ∀ c : Dev nD,
      r.2.mem ((c.tc : Thread nD τ).loc main_v72) = W13 m ρ c (Proc.devRef .tc main_v72)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h c =>
      ⟨h c _ (mem_uc main_v72 (by decide)),
       (h c _ (mem_uc main_arg0 (by decide))).trans (W13_main_arg0 m ρ c),
       (h c _ (mem_uc main_arg1 (by decide))).trans (W13_main_arg1 m ρ c),
       (h c _ (mem_uc main_arg2 (by decide))).trans (W13_main_arg2 m ρ c),
       (h c _ (mem_uc main_arg3 (by decide))).trans (W13_main_arg3 m ρ c),
       (h c _ (mem_uc main_arg4 (by decide))).trans (W13_main_arg4 m ρ c),
       (h c _ (mem_uc main_arg5 (by decide))).trans (W13_main_arg5 m ρ c)⟩)

end Cert.KernelIdeal.KRun

end
-- ==== Proof.Gcn.lean ====
import proofs.«136382_j23210003267827_1_alg».proof.Proof.Gen.KernelIdeal

/-!
# The graph-convolution layer as pure functions of arrays

The program computes two rounds of `relu?(A · (X W) + b)`, where `A` is the symmetrically normalised
adjacency of the edge list with a self loop added at every node. Everything outside the product `X W`
is the same array arithmetic in the tiled program and in the plain one, so it is named here once:

* `srcIdx e`, `dstIdx e` : the 1 700 000 edge endpoints — a row of the edge list followed by
  `0, …, 99 999`;
* `wrapIdx v` : a negative endpoint counted from the end (`v + 100000` where `v < 0`);
* `degree e` : the number of edges arriving at each node (a scatter of ones along `dstIdx`);
* `degInv e` : `degree^(-1/2)` where the degree is positive, `0` elsewhere;
* `edgeNormOf d`, `edgeNorm` : per edge, the product of a per-node factor (of `degInv`) at its two endpoints;
* `aggregate h src dst w b` : per node, the sum over arriving edges of `w · h[source]`, plus the bias row;
* `relu`, and `padRows` : a [100000,128] array extended by 2400 rows of a fill value and narrowed to
  the 16-bit format, and `topRows`, the first 100000 rows of a [102400,128] array.

Each is the composition of the printed array operations, written at an arbitrary float instance.
-/

noncomputable section

namespace Cert.KernelIdeal.Gcn

open Cert.KernelIdeal Cert.KernelIdeal.Gen Idealize.ShloMosaic

variable (F : FTy → Type) [FloatOps F]

/-- Row `0` of the edge list followed by the self loops `0, …, n − 1`. -/
def srcIdx (e : IVec S2x1600000 32) : IVec S1700000 32 :=
  concatenate S1700000 0 [⟨S1600000, shapeCast S1600000 (extractStridedSlice S1x1600000 ![0, 0] e slices_S2x1600000_S1x1600000_0_0) shapeCasts_S1x1600000_S1600000⟩, ⟨S100000, iotaInDim S100000 32 0⟩] concatenates_S1600000_S100000_S1700000_d0

/-- Row `1` of the edge list followed by the self loops `0, …, n − 1`. -/
def dstIdx (e : IVec S2x1600000 32) : IVec S1700000 32 :=
  concatenate S1700000 0 [⟨S1600000, shapeCast S1600000 (extractStridedSlice S1x1600000 ![1, 0] e slices_S2x1600000_S1x1600000_1_0) shapeCasts_S1x1600000_S1600000⟩, ⟨S100000, iotaInDim S100000 32 0⟩] concatenates_S1600000_S100000_S1700000_d0

/-- A negative index counts from the end: `v + n` where `v < 0`, `v` elsewhere. -/
def wrapIdx (v : IVec S1700000 32) : IVec S1700000 32 :=
  select (cmpi .slt v (broadcastInDim S1700000 ![] bcast_S_S1700000 (constantI S_ 32 0#32)))
    (addi v (broadcastInDim S1700000 ![] bcast_S_S1700000 (constantI S_ 32 100000#32))) v

/-- The number of edges arriving at each node: ones scattered along the destinations into zeros. -/
def degree (dst : IVec S1700000 32) : FVec F S100000 .f32 :=
  Host.scatterAdd scatter_S100000_S1700000x1_S1700000_n_0_0_1
    (broadcastInDim S100000 ![] bcast_S_S100000 (constant S_ .f32 0x00000000#32))
    (broadcastInDim S1700000x1 ![0] bcast_S1700000_S1700000x1_0 dst)
    (broadcastInDim S1700000 ![] bcast_S_S1700000 (constant S_ .f32 0x3F800000#32))

/-- `degree^(-1/2)` where the degree is positive, zero elsewhere. -/
def degInv (dst : IVec S1700000 32) : FVec F S100000 .f32 :=
  select (cmpf .ogt (degree F dst) (broadcastInDim S100000 ![] bcast_S_S100000 (constant S_ .f32 0x00000000#32)))
    (Host.rsqrt (degree F dst))
    (broadcastInDim S100000 ![] bcast_S_S100000 (id (constant S_ .f32 0x00000000#32)))

/-- Per edge, the product of a per-node factor `d` at its source and at its destination. -/
def edgeNormOf (d : FVec F S100000 .f32) (src dst : IVec S1700000 32) : FVec F S1700000 .f32 :=
  mulf
    (Host.gather gather_S100000_S1700000x1_S1700000_n_0_n_n_0_1_1 d
      (broadcastInDim S1700000x1 ![0] bcast_S1700000_S1700000x1_0 (wrapIdx src)))
    (Host.gather gather_S100000_S1700000x1_S1700000_n_0_n_n_0_1_1 d
      (broadcastInDim S1700000x1 ![0] bcast_S1700000_S1700000x1_0 (wrapIdx dst)))

/-- Per edge, the product of `degInv` at its source and at its destination. -/
def edgeNorm (src dst : IVec S1700000 32) : FVec F S1700000 .f32 :=
  edgeNormOf F (degInv F dst) src dst

/-- Per node, the sum over the edges arriving there of the edge weight times the source node's row of `h`,
    plus the bias row. -/
def aggregate (h : FVec F S100000x128 .f32) (src dst : IVec S1700000 32) (w : FVec F S1700000 .f32)
    (b : FVec F S128 .f32) : FVec F S100000x128 .f32 :=
  addf
    (Host.scatterAdd scatter_S100000x128_S1700000x1_S1700000x128_1_0_0_1
      (broadcastInDim S100000x128 ![] bcast_S_S100000x128 (constant S_ .f32 0x00000000#32))
      (broadcastInDim S1700000x1 ![0] bcast_S1700000_S1700000x1_0 dst)
      (mulf
        (Host.gather gather_S100000x128_S1700000x1_S1700000x128_1_0_n_n_0_1_1128 h
          (broadcastInDim S1700000x1 ![0] bcast_S1700000_S1700000x1_0 (wrapIdx src)))
        (broadcastInDim S1700000x128 ![0, 1] bcast_S1700000x1_S1700000x128_0_1
          (broadcastInDim S1700000x1 ![0] bcast_S1700000_S1700000x1_0 w))))
    (broadcastInDim S100000x128 ![0, 1] bcast_S1x128_S100000x128_0_1 (broadcastInDim S1x128 ![1] bcast_S128_S1x128_1 b))

/-- The positive part, entry by entry. -/
def relu (h : FVec F S100000x128 .f32) : FVec F S100000x128 .f32 :=
  maximumf h (broadcastInDim S100000x128 ![] bcast_S_S100000x128 (constant S_ .f32 0x00000000#32))

/-- The array extended below by 2400 rows of the integer `0` read as a float, narrowed to 16 bits. -/
def padRows (x : FVec F S100000x128 .f32) : FVec F S102400x128 .bf16 :=
  truncf .bf16 (pad S102400x128 ![0, 0] ![2400, 0] ![0, 0] x (sitofp .f32 (constantI S_ 32 0#32))
    pads_S100000x128_S102400x128_024000_000 h_S_) bitsLt_bf16_f32

/-- A [128,128] matrix narrowed to 16 bits. -/
def narrow (w : FVec F S128x128 .f32) : FVec F S128x128 .bf16 := truncf .bf16 w bitsLt_bf16_f32

/-- The first 100000 rows. -/
def topRows (y : FVec F S102400x128 .f32) : FVec F S100000x128 .f32 :=
  extractStridedSlice S100000x128 ![0, 0] y slices_S102400x128_S100000x128_0_0

end Cert.KernelIdeal.Gcn

end
-- ==== Proof.KernelHostPre.lean ====
import proofs.«136382_j23210003267827_1_alg».proof.Proof.Gen.KernelIdeal.Frame
import proofs.«136382_j23210003267827_1_alg».proof.Proof.Gcn
import Idealize.ShloMosaic.Lib.StableHlo.Run

/-!
# The tiled program's host arithmetic before the first product

Read from arbitrary buffer contents `V`, the five stretches of array operations between the launch and the
first matrix product leave the edge endpoints, the edge weights and the product's two operands — each the
named function of `Gcn` of what `V` held in the argument buffers — and do not write the two biases or the
second weight matrix.
-/

set_option maxRecDepth 16384

noncomputable section

namespace Cert.KernelIdeal.KHost

open Cert.KernelIdeal Cert.KernelIdeal.Gen Idealize.ShloMosaic Idealize.ShloMosaic.TcCoe Idealize.SL.Sem
open Idealize.ShloMosaic.StableHlo

variable {F : FTy → Type} [FloatOps F]

/-- The buffer contents after the five stretches that precede the first product. -/
abbrev pre (V : Valuation τ sig (Elt F)) : Valuation τ sig (Elt F) :=
  after hostOps0_4 (after hostOps0_3 (after hostOps0_2 (after hostOps0_1 (after hostOps0 V))))

/-- The source endpoints are built from the edge list. -/
theorem pre_src (V : Valuation τ sig (Elt F)) :
    pre V (Proc.devRef .tc main_v5) = Gcn.srcIdx (V (Proc.devRef .tc main_arg1)) := by
  after_results
  rfl

/-- The destination endpoints are built from the edge list. -/
theorem pre_dst (V : Valuation τ sig (Elt F)) :
    pre V (Proc.devRef .tc main_v6) = Gcn.dstIdx (V (Proc.devRef .tc main_arg1)) := by
  after_results
  rfl

set_option maxHeartbeats 4000000 in
/-- The edge weights are built from the edge list alone. -/
theorem pre_norm (V : Valuation τ sig (Elt F)) :
    pre V (Proc.devRef .tc main_v29)
      = Gcn.edgeNorm F (Gcn.srcIdx (V (Proc.devRef .tc main_arg1))) (Gcn.dstIdx (V (Proc.devRef .tc main_arg1))) := by
  after_results
  rfl

/-- The first product's left operand is the node features, padded and narrowed. -/
theorem pre_lhs (V : Valuation τ sig (Elt F)) :
    pre V (Proc.devRef .tc main_v31) = Gcn.padRows F (V (Proc.devRef .tc main_arg0)) := by
  after_results
  rfl

/-- The first product's right operand is the first weight matrix, narrowed. -/
theorem pre_rhs (V : Valuation τ sig (Elt F)) :
    pre V (Proc.devRef .tc main_v32) = Gcn.narrow F (V (Proc.devRef .tc main_arg2)) := by
  after_results
  rfl

/-- The first bias is not written before the first product. -/
theorem pre_arg3 (V : Valuation τ sig (Elt F)) : pre V (Proc.devRef .tc main_arg3) = V (Proc.devRef .tc main_arg3) := by
  after_results
/-- The second weight matrix is not written before the first product. -/
theorem pre_arg4 (V : Valuation τ sig (Elt F)) : pre V (Proc.devRef .tc main_arg4) = V (Proc.devRef .tc main_arg4) := by
  after_results
/-- The second bias is not written before the first product. -/
theorem pre_arg5 (V : Valuation τ sig (Elt F)) : pre V (Proc.devRef .tc main_arg5) = V (Proc.devRef .tc main_arg5) := by
  after_results

end Cert.KernelIdeal.KHost

end
-- ==== Proof.KernelHostMid.lean ====
import proofs.«136382_j23210003267827_1_alg».proof.Proof.Gen.KernelIdeal.Frame
import proofs.«136382_j23210003267827_1_alg».proof.Proof.Gcn
import Idealize.ShloMosaic.Lib.StableHlo.Run

/-!
# The tiled program's host arithmetic between the two products

Read from arbitrary buffer contents `V`, the five stretches between the two matrix products leave the second
product's operands: the first layer's aggregation of the first product's top rows, its positive part, padded and
narrowed; and the second weight matrix narrowed. They do not write the endpoints, the edge weights or the
second bias.
-/

set_option maxRecDepth 16384

noncomputable section

namespace Cert.KernelIdeal.KHost

open Cert.KernelIdeal Cert.KernelIdeal.Gen Idealize.ShloMosaic Idealize.ShloMosaic.TcCoe Idealize.SL.Sem
open Idealize.ShloMosaic.StableHlo

variable {F : FTy → Type} [FloatOps F]

/-- The buffer contents after the five stretches between the two products. -/
abbrev mid (V : Valuation τ sig (Elt F)) : Valuation τ sig (Elt F) :=
  after hostOps1_4 (after hostOps1_3 (after hostOps1_2 (after hostOps1_1 (after hostOps1 V))))

set_option maxHeartbeats 4000000 in
/-- The second product's left operand: the first layer's aggregation of the first product's top rows, its
    positive part, padded and narrowed. -/
theorem mid_lhs (V : Valuation τ sig (Elt F)) :
    mid V (Proc.devRef .tc main_v53)
      = Gcn.padRows F (Gcn.relu F (Gcn.aggregate F (Gcn.topRows F (V (Proc.devRef .tc main_v33)))
          (V (Proc.devRef .tc main_v5)) (V (Proc.devRef .tc main_v6)) (V (Proc.devRef .tc main_v29))
          (V (Proc.devRef .tc main_arg3)))) := by
  after_results
  rfl

/-- The second product's right operand is the second weight matrix, narrowed. -/
theorem mid_rhs (V : Valuation τ sig (Elt F)) :
    mid V (Proc.devRef .tc main_v54) = Gcn.narrow F (V (Proc.devRef .tc main_arg4)) := by
  after_results
  rfl

/-- The endpoints, the edge weights and the second bias are not written between the products. -/
theorem mid_src (V : Valuation τ sig (Elt F)) : mid V (Proc.devRef .tc main_v5) = V (Proc.devRef .tc main_v5) := by
  after_results
theorem mid_dst (V : Valuation τ sig (Elt F)) : mid V (Proc.devRef .tc main_v6) = V (Proc.devRef .tc main_v6) := by
  after_results
theorem mid_norm (V : Valuation τ sig (Elt F)) : mid V (Proc.devRef .tc main_v29) = V (Proc.devRef .tc main_v29) := by
  after_results
theorem mid_arg5 (V : Valuation τ sig (Elt F)) : mid V (Proc.devRef .tc main_arg5) = V (Proc.devRef .tc main_arg5) := by
  after_results

end Cert.KernelIdeal.KHost

end
-- ==== Proof.KernelHostFin.lean ====
import proofs.«136382_j23210003267827_1_alg».proof.Proof.Gen.KernelIdeal.Frame
import proofs.«136382_j23210003267827_1_alg».proof.Proof.Gcn
import Idealize.ShloMosaic.Lib.StableHlo.Run

/-!
# The tiled program's host arithmetic after the second product

Read from arbitrary buffer contents `V`, the last stretch leaves in the result buffer the second layer's
aggregation of the second product's top rows.
-/

set_option maxRecDepth 16384

noncomputable section

namespace Cert.KernelIdeal.KHost

open Cert.KernelIdeal Cert.KernelIdeal.Gen Idealize.ShloMosaic Idealize.ShloMosaic.TcCoe Idealize.SL.Sem
open Idealize.ShloMosaic.StableHlo

variable {F : FTy → Type} [FloatOps F]

set_option maxHeartbeats 4000000 in
/-- The result: the second layer's aggregation of the second product's top rows. -/
theorem fin_out (V : Valuation τ sig (Elt F)) :
    after hostOps2 V (Proc.devRef .tc main_v72)
      = Gcn.aggregate F (Gcn.topRows F (V (Proc.devRef .tc main_v55)))
          (V (Proc.devRef .tc main_v5)) (V (Proc.devRef .tc main_v6)) (V (Proc.devRef .tc main_v29))
          (V (Proc.devRef .tc main_arg5)) := by
  after_results
  rfl

end Cert.KernelIdeal.KHost

end
-- ==== Proof.TileMatmul.lean ====
/- The tiled matrix product, read at an index.

   rowDot X W is the product of a 102400 × 128 matrix by a 128 × 128 matrix, entry by entry: the sum over the
   shared coordinate of the products of the entries. The two kernel bodies of this program each compute, on one
   4096 × 128 block of rows and the whole right factor, exactly that sum at every entry of the block. -/
import proofs.«136382_j23210003267827_1_alg».proof.Proof.Gen.KernelIdeal.Frame
import Idealize.ShloMosaic.Lib.ValueIdx
import Idealize.ShloMosaic.Lib.Pipeline.Value
import Idealize.ShloMosaic.PureOps.Ideal.Laws

noncomputable section

namespace Cert.KernelIdeal.Tiled

open Cert.KernelIdeal Cert.KernelIdeal.Gen Idealize.ShloMosaic

/-! ## Indices of the three literal shapes from their two coordinates -/

/-- Entry (r, k) of a 102400 × 128 matrix. -/
abbrev bigIx (r : Fin 102400) (k : Fin 128) : S102400x128.Idx :=
  fun a => match a with | ⟨0, _⟩ => ⟨r.val, r.isLt⟩ | ⟨1, _⟩ => ⟨k.val, k.isLt⟩

/-- Entry (k, n) of a 128 × 128 matrix. -/
abbrev sqIx (k : Fin 128) (n : Fin 128) : S128x128.Idx :=
  fun a => match a with | ⟨0, _⟩ => ⟨k.val, k.isLt⟩ | ⟨1, _⟩ => ⟨n.val, n.isLt⟩

/-- Entry (r, k) of a 4096 × 128 block. -/
abbrev blkIx (r : Fin 4096) (k : Fin 128) : S4096x128.Idx :=
  fun a => match a with | ⟨0, _⟩ => ⟨r.val, r.isLt⟩ | ⟨1, _⟩ => ⟨k.val, k.isLt⟩

/-! ## The product of the whole matrices -/

/-- The matrix product X · W entry by entry: entry (r, n) is the sum over k of X(r, k) · W(k, n). -/
def rowDot (X : (⟨S102400x128, .bf16⟩ : BufTy).Contents (Elt Ideal)) (W : (⟨S128x128, .bf16⟩ : BufTy).Contents (Elt Ideal)) :
    (⟨S102400x128, .f32⟩ : BufTy).Contents (Elt Ideal) :=
  fun i => ∑ k : Fin 128, X (bigIx (i 0) k) * W (sqIx k (i 1))

/-- Its entry, unfolded. -/
theorem rowDot_apply (X : (⟨S102400x128, .bf16⟩ : BufTy).Contents (Elt Ideal)) (W : (⟨S128x128, .bf16⟩ : BufTy).Contents (Elt Ideal))
    (i : S102400x128.Idx) : rowDot X W i = ∑ k : Fin 128, X (bigIx (i 0) k) * W (sqIx k (i 1)) := rfl

/-! ## One block's product, read at an entry -/

open Idealize.ShloMosaic.ValueIdx in
/-- The product of a 4096 × 128 block by the 128 × 128 factor, accumulated into the zero matrix, at entry (r, n): the
    sum over k of the block's (r, k) entry times the factor's (k, n) entry. The contraction runs over the one shared
    axis, so its index is that axis's coordinate; the left index takes its row from the result and its column from
    the contraction, the right index its row from the contraction and its column from the result. -/
theorem tile_apply (x0 : Vec Ideal S4096x128 .bf16) (x1 : Vec Ideal S128x128 .bf16) (j : S4096x128.Idx) :
    matmul (F := Ideal) (φ₁ := .bf16) (φ₂ := .bf16) dot_S4096x128_S128x128_S4096x128_1_0_0_1_n_n none x0 x1 (constant (F := Ideal) S4096x128 .f32 0x00000000#32) j
      = ∑ k : Fin 128, x0 (blkIx (j 0) k) * x1 (sqIx k (j 1)) := by
  simp only [matmul]
  rw [Ideal.matmul_constant_zero_apply, ← Equiv.sum_comp (contrEquiv1 dot_S4096x128_S128x128_S4096x128_1_0_0_1_n_n 128 rfl rfl).symm]
  refine Finset.sum_congr rfl fun k _ => ?_
  have ck := contrEquiv1_symm_val dot_S4096x128_S128x128_S4096x128_1_0_0_1_n_n 128 rfl rfl k
  have hl : dot_S4096x128_S128x128_S4096x128_1_0_0_1_n_n.lhsIdx j
      ((contrEquiv1 dot_S4096x128_S128x128_S4096x128_1_0_0_1_n_n 128 rfl rfl).symm k) = blkIx (j 0) k :=
    funext fun a => Fin.ext (by
      match a with
      | ⟨0, _⟩ =>
        show (dot_S4096x128_S128x128_S4096x128_1_0_0_1_n_n.lhsIdx j _ (0 : Fin 2)).val = (j 0).val
        unfold DotDims.lhsIdx; rw [dif_neg (by decide), dif_pos (by decide)]; rfl
      | ⟨1, _⟩ =>
        show (dot_S4096x128_S128x128_S4096x128_1_0_0_1_n_n.lhsIdx j _ (1 : Fin 2)).val = k.val
        rw [dot_S4096x128_S128x128_S4096x128_1_0_0_1_n_n.lhsIdx_val_of_single (cl := (1 : Fin 2)) rfl]; exact ck)
  have hr : dot_S4096x128_S128x128_S4096x128_1_0_0_1_n_n.rhsIdx j
      ((contrEquiv1 dot_S4096x128_S128x128_S4096x128_1_0_0_1_n_n 128 rfl rfl).symm k) = sqIx k (j 1) :=
    funext fun a => Fin.ext (by
      match a with
      | ⟨0, _⟩ =>
        show (dot_S4096x128_S128x128_S4096x128_1_0_0_1_n_n.rhsIdx j _ (0 : Fin 2)).val = k.val
        rw [dot_S4096x128_S128x128_S4096x128_1_0_0_1_n_n.rhsIdx_val_of_single (cr := (0 : Fin 2)) rfl]; exact ck
      | ⟨1, _⟩ =>
        show (dot_S4096x128_S128x128_S4096x128_1_0_0_1_n_n.rhsIdx j _ (1 : Fin 2)).val = (j 1).val
        unfold DotDims.rhsIdx; rw [dif_neg (by decide), dif_pos (by decide)]; rfl)
  rw [hl, hr]

/-! ## The two kernel bodies -/

/-- The first kernel body's result at an entry of its block: the two shape casts are identities, and what remains is
    the block's product with the right factor. -/
theorem pay0_apply (x0 : Vec Ideal S4096x128 .bf16) (x1 : Vec Ideal S128x128 .bf16) (j : S4096x128.Idx) :
    k0_pay1 (F := Ideal) x0 x1 j = ∑ k : Fin 128, x0 (blkIx (j 0) k) * x1 (sqIx k (j 1)) := by
  unfold k0_pay1
  rw [shapeCast_self, shapeCast_self]
  exact tile_apply x0 x1 j

/-- The second kernel body's result at an entry of its block: the same product. -/
theorem pay1_apply (x0 : Vec Ideal S4096x128 .bf16) (x1 : Vec Ideal S128x128 .bf16) (j : S4096x128.Idx) :
    k1_pay1 (F := Ideal) x0 x1 j = ∑ k : Fin 128, x0 (blkIx (j 0) k) * x1 (sqIx k (j 1)) := by
  unfold k1_pay1
  rw [shapeCast_self, shapeCast_self]
  exact tile_apply x0 x1 j

end Cert.KernelIdeal.Tiled

end
-- ==== Proof.TileArray.lean ====
/- The tiled matrix product as a whole array.

   Each of the program's two pipelined regions walks 25 grid points; point t reads rows 4096·t … 4096·t + 4095 of the
   left operand and the whole right operand, and writes the product of the two back to the same rows of the output.
   The 25 row blocks tile the 102400 rows, so when a region ends its output array holds rowDot of the two operand
   arrays as the region found them. -/
import proofs.«136382_j23210003267827_1_alg».proof.Proof.TileMatmul

set_option maxRecDepth 16384

noncomputable section

namespace Cert.KernelIdeal.Tiled

open Cert.KernelIdeal Cert.KernelIdeal.Gen Idealize.ShloMosaic Idealize.ShloMosaic.TcCoe Idealize.SL.Sem
open Idealize.ShloMosaic.Pipeline (Dat)

/-- The zero offsets of a whole-block access, however they are spelt. -/
theorem zeroOff : (![0, 0] : Fin 2 → Nat) = fun _ => 0 := funext fun a => by fin_cases a <;> rfl

/-! ## One grid point, over plain blocks and index maps -/

/-- If a left block holds rows q·4096 … of X, the right block holds all of W, and the output block sits at the same
    rows q·4096 … of the output, then the block product at an entry is rowDot X W at the entry's place in the output. -/
theorem block_of_rows (X : (⟨S102400x128, .bf16⟩ : BufTy).Contents (Elt Ideal)) (W : (⟨S128x128, .bf16⟩ : BufTy).Contents (Elt Ideal))
    (x0 : Vec Ideal S4096x128 .bf16) (x1 : Vec Ideal S128x128 .bf16) (q : Nat)
    (e0 e2 : S4096x128.Idx → S102400x128.Idx) (e1 : S128x128.Idx → S128x128.Idx)
    (hx0 : ∀ y, x0 y = X (e0 y)) (hx1 : ∀ y, x1 y = W (e1 y))
    (h00 : ∀ y, (e0 y 0).val = q * 4096 + (y 0).val) (h01 : ∀ y, (e0 y 1).val = (y 1).val)
    (h10 : ∀ y, (e1 y 0).val = (y 0).val) (h11 : ∀ y, (e1 y 1).val = (y 1).val)
    (h20 : ∀ y, (e2 y 0).val = q * 4096 + (y 0).val) (h21 : ∀ y, (e2 y 1).val = (y 1).val)
    (j : S4096x128.Idx) :
    ∑ k : Fin 128, x0 (blkIx (j 0) k) * x1 (sqIx k (j 1)) = rowDot X W (e2 j) := by
  rw [rowDot_apply]
  refine Finset.sum_congr rfl fun k _ => ?_
  rw [hx0, hx1]
  have a0 : e0 (blkIx (j 0) k) = bigIx (e2 j 0) k := funext fun a => Fin.ext (by
    match a with
    | ⟨0, _⟩ => show (e0 (blkIx (j 0) k) 0).val = (e2 j 0).val; rw [h00, h20]
    | ⟨1, _⟩ => show (e0 (blkIx (j 0) k) 1).val = k.val; rw [h01])
  have a1 : e1 (sqIx k (j 1)) = sqIx k (e2 j 1) := funext fun a => Fin.ext (by
    match a with
    | ⟨0, _⟩ => show (e1 (sqIx k (j 1)) 0).val = k.val; rw [h10]
    | ⟨1, _⟩ => show (e1 (sqIx k (j 1)) 1).val = (e2 j 1).val; rw [h11, h21])
  rw [a0, a1]

section Region0
variable (V : (c : Dev nD) → (b : Ref sig .tc) → Buf (Elt Ideal) ((c : Thread nD τ).loc b))

/-! ## The first region -/

/-- The region's three arrays are the left operand, the right operand and the output. -/
theorem arr0_0 : Pipeline.arrRef spec0 0 = main_v31 := rfl
theorem arr0_1 : Pipeline.arrRef spec0 1 = main_v32 := rfl
theorem arr0_2 : Pipeline.arrRef spec0 2 = main_v33 := rfl

/-- The printed index maps over the 25 grid points: the left operand and the output move one row block per point, the
    right operand stays. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is row block t of the product of the two operand arrays as the region found them. -/
theorem flushed0_eq (c : Dev nD) (t : Fin cfg0.N) :
    (dat0 (F := Ideal) V c).flushed 2 t
      = ((cfg0.win 2).blk t).view.read (Elt Ideal) (rowDot (V c main_v31) (V c main_v32)) := by
  show (cfg0.win 2).cut (grid0.coords t) ((dat0 (F := Ideal) V c).after 2 t) = _
  rw [after0_2]
  unfold out0_2
  rw [View.canon_unit_zero zeroOff]
  simp only [View.ld_unit_zero (S := S4096x128) zeroOff, View.ld_unit_zero (S := S128x128) zeroOff]
  obtain ⟨i00, i01, i10, i11, i20, i21⟩ := idx0 t
  funext j
  show k0_pay1 (F := Ideal) (iblk0 V c 0 t) (iblk0 V c 1 t) j
    = rowDot (V c main_v31) (V c main_v32) (((cfg0.win 2).blk t).view.emb j)
  refine (pay0_apply _ _ _).trans ?_
  refine block_of_rows (V c main_v31) (V c main_v32) _ _ t.val
    ((cfg0.win 0).blk t).view.emb ((cfg0.win 2).blk t).view.emb ((cfg0.win 1).blk t).view.emb
    (fun y => rfl) (fun y => rfl) (fun y => ?_) (fun y => ?_) (fun y => ?_) (fun y => ?_) (fun y => ?_) (fun y => ?_) j
  · show win0_0.index t (0 : Fin 2) * 4096 + 1 * (y 0).val = _; omega
  · show win0_0.index t (1 : Fin 2) * 128 + 1 * (y 1).val = _; omega
  · show win0_1.index t (0 : Fin 2) * 128 + 1 * (y 0).val = _; omega
  · show win0_1.index t (1 : Fin 2) * 128 + 1 * (y 1).val = _; omega
  · show win0_2.index t (0 : Fin 2) * 4096 + 1 * (y 0).val = _; omega
  · show win0_2.index t (1 : Fin 2) * 128 + 1 * (y 1).val = _; omega

/-- A row-and-column index of the output is in point t's block exactly when each coordinate is in the block's range. -/
theorem mem_blk0 (t : Fin cfg0.N) (i : S102400x128.Idx) :
    i ∈ ((cfg0.win 2).blk t).view.set ↔ ∀ a : Fin 2, win0_2.index t a * S4096x128.size a ≤ (i a).val
      ∧ (i a).val < win0_2.index t a * S4096x128.size a + S4096x128.size a := by
  show i ∈ ((View.whole main_v33).slice (win0_2.rect t)).set ↔ _
  rw [View.set_slice_whole, Rect.mem_set_unit]
  exact Iff.rfl

/-- Every output entry is written by some point: row r lies in row block r / 4096, and 102400 = 25 · 4096. -/
theorem cover0 (i : S102400x128.Idx) :
    ∃ t : Fin cfg0.N, (cfg0.win 2).flush t = true ∧ i ∈ ((cfg0.win 2).blk t).view.set := by
  have hi0 : (i 0).val < 102400 := (i 0).isLt
  have hi1 : (i 1).val < 128 := (i 1).isLt
  have hN : (i 0).val / 4096 < cfg0.N := by
    show (i 0).val / 4096 < grid0.N
    rw [N_0]; omega
  refine ⟨⟨(i 0).val / 4096, hN⟩, flush0_2 _, ?_⟩
  obtain ⟨-, -, -, -, i20, i21⟩ := idx0 ⟨(i 0).val / 4096, hN⟩
  have q0 : win0_2.index ⟨(i 0).val / 4096, hN⟩ (0 : Fin 2) = (i 0).val / 4096 := i20
  rw [mem_blk0]
  intro a
  match a with
  | ⟨0, _⟩ =>
    show win0_2.index ⟨(i 0).val / 4096, hN⟩ (0 : Fin 2) * 4096 ≤ (i 0).val
      ∧ (i 0).val < win0_2.index ⟨(i 0).val / 4096, hN⟩ (0 : Fin 2) * 4096 + 4096
    omega
  | ⟨1, _⟩ =>
    show win0_2.index ⟨(i 0).val / 4096, hN⟩ (1 : Fin 2) * 128 ≤ (i 1).val
      ∧ (i 1).val < win0_2.index ⟨(i 0).val / 4096, hN⟩ (1 : Fin 2) * 128 + 128
    omega

/-- When the first region ends, its output array is the product of its two operand arrays as the region found them:
    each point wrote its row block of the product, and the row blocks cover every entry. -/
theorem final0 (c : Dev nD) :
    (dat0 (F := Ideal) V c).arrAt 2 cfg0.N = rowDot (V c main_v31) (V c main_v32) :=
  (dat0 (F := Ideal) V c).arrAt_eq_of_cover 2 (rowDot (V c main_v31) (V c main_v32))
    (fun t _ => flushed0_eq V c t) cover0

end Region0

section Region1
variable (V : (c : Dev nD) → (b : Ref sig .tc) → Buf (Elt Ideal) ((c : Thread nD τ).loc b))

/-! ## The second region -/

/-- The region's three arrays are the left operand, the right operand and the output. -/
theorem arr1_0 : Pipeline.arrRef spec1 0 = main_v53 := rfl
theorem arr1_1 : Pipeline.arrRef spec1 1 = main_v54 := rfl
theorem arr1_2 : Pipeline.arrRef spec1 2 = main_v55 := rfl

/-- The printed index maps over the 25 grid points: the left operand and the output move one row block per point, the
    right operand stays. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point t writes back is row block t of the product of the two operand arrays as the region found them. -/
theorem flushed1_eq (c : Dev nD) (t : Fin cfg1.N) :
    (dat1 (F := Ideal) V c).flushed 2 t
      = ((cfg1.win 2).blk t).view.read (Elt Ideal) (rowDot (V c main_v53) (V c main_v54)) := by
  show (cfg1.win 2).cut (grid1.coords t) ((dat1 (F := Ideal) V c).after 2 t) = _
  rw [after1_2]
  unfold out1_2
  rw [View.canon_unit_zero zeroOff]
  simp only [View.ld_unit_zero (S := S4096x128) zeroOff, View.ld_unit_zero (S := S128x128) zeroOff]
  obtain ⟨i00, i01, i10, i11, i20, i21⟩ := idx1 t
  funext j
  show k1_pay1 (F := Ideal) (iblk1 V c 0 t) (iblk1 V c 1 t) j
    = rowDot (V c main_v53) (V c main_v54) (((cfg1.win 2).blk t).view.emb j)
  refine (pay1_apply _ _ _).trans ?_
  refine block_of_rows (V c main_v53) (V c main_v54) _ _ t.val
    ((cfg1.win 0).blk t).view.emb ((cfg1.win 2).blk t).view.emb ((cfg1.win 1).blk t).view.emb
    (fun y => rfl) (fun y => rfl) (fun y => ?_) (fun y => ?_) (fun y => ?_) (fun y => ?_) (fun y => ?_) (fun y => ?_) j
  · show win1_0.index t (0 : Fin 2) * 4096 + 1 * (y 0).val = _; omega
  · show win1_0.index t (1 : Fin 2) * 128 + 1 * (y 1).val = _; omega
  · show win1_1.index t (0 : Fin 2) * 128 + 1 * (y 0).val = _; omega
  · show win1_1.index t (1 : Fin 2) * 128 + 1 * (y 1).val = _; omega
  · show win1_2.index t (0 : Fin 2) * 4096 + 1 * (y 0).val = _; omega
  · show win1_2.index t (1 : Fin 2) * 128 + 1 * (y 1).val = _; omega

/-- A row-and-column index of the output is in point t's block exactly when each coordinate is in the block's range. -/
theorem mem_blk1 (t : Fin cfg1.N) (i : S102400x128.Idx) :
    i ∈ ((cfg1.win 2).blk t).view.set ↔ ∀ a : Fin 2, win1_2.index t a * S4096x128.size a ≤ (i a).val
      ∧ (i a).val < win1_2.index t a * S4096x128.size a + S4096x128.size a := by
  show i ∈ ((View.whole main_v55).slice (win1_2.rect t)).set ↔ _
  rw [View.set_slice_whole, Rect.mem_set_unit]
  exact Iff.rfl

/-- Every output entry is written by some point: row r lies in row block r / 4096, and 102400 = 25 · 4096. -/
theorem cover1 (i : S102400x128.Idx) :
    ∃ t : Fin cfg1.N, (cfg1.win 2).flush t = true ∧ i ∈ ((cfg1.win 2).blk t).view.set := by
  have hi0 : (i 0).val < 102400 := (i 0).isLt
  have hi1 : (i 1).val < 128 := (i 1).isLt
  have hN : (i 0).val / 4096 < cfg1.N := by
    show (i 0).val / 4096 < grid1.N
    rw [N_1]; omega
  refine ⟨⟨(i 0).val / 4096, hN⟩, flush1_2 _, ?_⟩
  obtain ⟨-, -, -, -, i20, i21⟩ := idx1 ⟨(i 0).val / 4096, hN⟩
  have q0 : win1_2.index ⟨(i 0).val / 4096, hN⟩ (0 : Fin 2) = (i 0).val / 4096 := i20
  rw [mem_blk1]
  intro a
  match a with
  | ⟨0, _⟩ =>
    show win1_2.index ⟨(i 0).val / 4096, hN⟩ (0 : Fin 2) * 4096 ≤ (i 0).val
      ∧ (i 0).val < win1_2.index ⟨(i 0).val / 4096, hN⟩ (0 : Fin 2) * 4096 + 4096
    omega
  | ⟨1, _⟩ =>
    show win1_2.index ⟨(i 0).val / 4096, hN⟩ (1 : Fin 2) * 128 ≤ (i 1).val
      ∧ (i 1).val < win1_2.index ⟨(i 0).val / 4096, hN⟩ (1 : Fin 2) * 128 + 128
    omega

/-- When the second region ends, its output array is the product of its two operand arrays as the region found them:
    each point wrote its row block of the product, and the row blocks cover every entry. -/
theorem final1 (c : Dev nD) :
    (dat1 (F := Ideal) V c).arrAt 2 cfg1.N = rowDot (V c main_v53) (V c main_v54) :=
  (dat1 (F := Ideal) V c).arrAt_eq_of_cover 2 (rowDot (V c main_v53) (V c main_v54))
    (fun t _ => flushed1_eq V c t) cover1

end Region1

end Cert.KernelIdeal.Tiled

end
-- ==== Proof.GcnLayers.lean ====
import proofs.«136382_j23210003267827_1_alg».proof.Proof.Gcn

/-!
# Two graph-convolution layers over an arbitrary node transform

Both programs compute `aggregate (dot (relu (aggregate (dot x W₁) … b₁)) W₂) … b₂` with the same endpoints and
edge weights; they differ only in how `dot` multiplies a node-feature array by a weight matrix. The
composition is stated here with `dot` a parameter.
-/

noncomputable section

namespace Cert.KernelIdeal.Gcn

open Cert.KernelIdeal Cert.KernelIdeal.Gen Idealize.ShloMosaic

variable (F : FTy → Type) [FloatOps F]

/-- Two layers: transform, aggregate along the edges, add the bias, take the positive part; transform,
    aggregate, add the bias. -/
def twoLayers (dot : FVec F S100000x128 .f32 → FVec F S128x128 .f32 → FVec F S100000x128 .f32)
    (x : FVec F S100000x128 .f32) (e : IVec S2x1600000 32) (w1 : FVec F S128x128 .f32) (b1 : FVec F S128 .f32)
    (w2 : FVec F S128x128 .f32) (b2 : FVec F S128 .f32) : FVec F S100000x128 .f32 :=
  aggregate F (dot (relu F (aggregate F (dot x w1) (srcIdx e) (dstIdx e) (edgeNorm F (srcIdx e) (dstIdx e)) b1)) w2)
    (srcIdx e) (dstIdx e) (edgeNorm F (srcIdx e) (dstIdx e)) b2

end Cert.KernelIdeal.Gcn

end
-- ==== Proof.KernelValue.lean ====
import proofs.«136382_j23210003267827_1_alg».proof.Proof.KernelHostPre
import proofs.«136382_j23210003267827_1_alg».proof.Proof.KernelHostMid
import proofs.«136382_j23210003267827_1_alg».proof.Proof.KernelHostFin
import proofs.«136382_j23210003267827_1_alg».proof.Proof.TileArray
import proofs.«136382_j23210003267827_1_alg».proof.Proof.GcnLayers

/-!
# What the tiled program leaves in its result buffer

The buffer contents are followed from the launch to the return: the stretches before the first product
build the endpoints, the edge weights and the padded operands from the arguments; the first region leaves
the row-by-row product in its output array and nothing else changed; the stretches between the products
aggregate its top rows, take the positive part and pad again; the second region multiplies; the last stretch
aggregates. Altogether the result buffer holds `twoLayers` of the arguments with the tiled product
`tiledDot` as the node transform.
-/

set_option maxRecDepth 16384

noncomputable section

namespace Cert.KernelIdeal.KValue

open Cert.KernelIdeal Cert.KernelIdeal.Gen Idealize.ShloMosaic Idealize.ShloMosaic.TcCoe Idealize.SL.Sem

/-- The tiled node transform: extend by fill rows, narrow, multiply row block by row block, keep the first
    100000 rows. -/
def tiledDot (x : FVec Ideal S100000x128 .f32) (w : FVec Ideal S128x128 .f32) : FVec Ideal S100000x128 .f32 :=
  Gcn.topRows Ideal (Tiled.rowDot (Gcn.padRows Ideal x) (Gcn.narrow Ideal w))

variable (m : (ℓ : Loc nD τ sig) → Buf (Elt Ideal) ℓ) (ρ : Dev nD → PrngReg)

/-! ## At the first region's entry -/

theorem at5_src (c : Dev nD) : W5 m ρ c (Proc.devRef .tc main_v5) = Gcn.srcIdx (m ((c : Thread nD τ).loc main_arg1)) := KHost.pre_src (W0 m ρ c)
theorem at5_dst (c : Dev nD) : W5 m ρ c (Proc.devRef .tc main_v6) = Gcn.dstIdx (m ((c : Thread nD τ).loc main_arg1)) := KHost.pre_dst (W0 m ρ c)
theorem at5_nrm (c : Dev nD) : W5 m ρ c (Proc.devRef .tc main_v29) = Gcn.edgeNorm Ideal (Gcn.srcIdx (m ((c : Thread nD τ).loc main_arg1))) (Gcn.dstIdx (m ((c : Thread nD τ).loc main_arg1))) := KHost.pre_norm (W0 m ρ c)
theorem at5_lhs (c : Dev nD) : W5 m ρ c (Proc.devRef .tc main_v31) = Gcn.padRows Ideal (m ((c : Thread nD τ).loc main_arg0)) := KHost.pre_lhs (W0 m ρ c)
theorem at5_rhs (c : Dev nD) : W5 m ρ c (Proc.devRef .tc main_v32) = Gcn.narrow Ideal (m ((c : Thread nD τ).loc main_arg2)) := KHost.pre_rhs (W0 m ρ c)
theorem at5_a3 (c : Dev nD) : W5 m ρ c (Proc.devRef .tc main_arg3) = m ((c : Thread nD τ).loc main_arg3) := KHost.pre_arg3 (W0 m ρ c)
theorem at5_a4 (c : Dev nD) : W5 m ρ c (Proc.devRef .tc main_arg4) = m ((c : Thread nD τ).loc main_arg4) := KHost.pre_arg4 (W0 m ρ c)
theorem at5_a5 (c : Dev nD) : W5 m ρ c (Proc.devRef .tc main_arg5) = m ((c : Thread nD τ).loc main_arg5) := KHost.pre_arg5 (W0 m ρ c)

/-! ## At the first region's exit: its output array holds the product, the rest is as entered -/

theorem at6_out (c : Dev nD) :
    W6 m ρ c (Proc.devRef .tc main_v33) = Tiled.rowDot (Gcn.padRows Ideal (m ((c : Thread nD τ).loc main_arg0))) (Gcn.narrow Ideal (m ((c : Thread nD τ).loc main_arg2))) := by
  refine ((W6_arr m ρ c 2).trans (Tiled.final0 (V5 m ρ) c)).trans ?_
  show Tiled.rowDot (W5 m ρ c (Proc.devRef .tc main_v31)) (W5 m ρ c (Proc.devRef .tc main_v32)) = _
  rw [at5_lhs, at5_rhs]
theorem at6_src (c : Dev nD) : W6 m ρ c (Proc.devRef .tc main_v5) = Gcn.srcIdx (m ((c : Thread nD τ).loc main_arg1)) := (W6_of_ne m ρ c main_v5 (by decide)).trans (at5_src m ρ c)
theorem at6_dst (c : Dev nD) : W6 m ρ c (Proc.devRef .tc main_v6) = Gcn.dstIdx (m ((c : Thread nD τ).loc main_arg1)) := (W6_of_ne m ρ c main_v6 (by decide)).trans (at5_dst m ρ c)
theorem at6_nrm (c : Dev nD) : W6 m ρ c (Proc.devRef .tc main_v29) = Gcn.edgeNorm Ideal (Gcn.srcIdx (m ((c : Thread nD τ).loc main_arg1))) (Gcn.dstIdx (m ((c : Thread nD τ).loc main_arg1))) := (W6_of_ne m ρ c main_v29 (by decide)).trans (at5_nrm m ρ c)
theorem at6_a3 (c : Dev nD) : W6 m ρ c (Proc.devRef .tc main_arg3) = m ((c : Thread nD τ).loc main_arg3) := (W6_of_ne m ρ c main_arg3 (by decide)).trans (at5_a3 m ρ c)
theorem at6_a4 (c : Dev nD) : W6 m ρ c (Proc.devRef .tc main_arg4) = m ((c : Thread nD τ).loc main_arg4) := (W6_of_ne m ρ c main_arg4 (by decide)).trans (at5_a4 m ρ c)
theorem at6_a5 (c : Dev nD) : W6 m ρ c (Proc.devRef .tc main_arg5) = m ((c : Thread nD τ).loc main_arg5) := (W6_of_ne m ρ c main_arg5 (by decide)).trans (at5_a5 m ρ c)

/-! ## At the second region's entry -/

theorem at11_lhs (c : Dev nD) : W11 m ρ c (Proc.devRef .tc main_v53) = Gcn.padRows Ideal (Gcn.relu Ideal (Gcn.aggregate Ideal (tiledDot (m ((c : Thread nD τ).loc main_arg0)) (m ((c : Thread nD τ).loc main_arg2))) (Gcn.srcIdx (m ((c : Thread nD τ).loc main_arg1))) (Gcn.dstIdx (m ((c : Thread nD τ).loc main_arg1))) (Gcn.edgeNorm Ideal (Gcn.srcIdx (m ((c : Thread nD τ).loc main_arg1))) (Gcn.dstIdx (m ((c : Thread nD τ).loc main_arg1)))) (m ((c : Thread nD τ).loc main_arg3)))) := by
  have h := KHost.mid_lhs (W6 m ρ c)
  rw [at6_out, at6_src, at6_dst, at6_nrm, at6_a3] at h
  exact h
theorem at11_rhs (c : Dev nD) : W11 m ρ c (Proc.devRef .tc main_v54) = Gcn.narrow Ideal (m ((c : Thread nD τ).loc main_arg4)) := by
  have h := KHost.mid_rhs (W6 m ρ c)
  rw [at6_a4] at h
  exact h
theorem at11_src (c : Dev nD) : W11 m ρ c (Proc.devRef .tc main_v5) = Gcn.srcIdx (m ((c : Thread nD τ).loc main_arg1)) := (KHost.mid_src (W6 m ρ c)).trans (at6_src m ρ c)
theorem at11_dst (c : Dev nD) : W11 m ρ c (Proc.devRef .tc main_v6) = Gcn.dstIdx (m ((c : Thread nD τ).loc main_arg1)) := (KHost.mid_dst (W6 m ρ c)).trans (at6_dst m ρ c)
theorem at11_nrm (c : Dev nD) : W11 m ρ c (Proc.devRef .tc main_v29) = Gcn.edgeNorm Ideal (Gcn.srcIdx (m ((c : Thread nD τ).loc main_arg1))) (Gcn.dstIdx (m ((c : Thread nD τ).loc main_arg1))) := (KHost.mid_norm (W6 m ρ c)).trans (at6_nrm m ρ c)
theorem at11_a5 (c : Dev nD) : W11 m ρ c (Proc.devRef .tc main_arg5) = m ((c : Thread nD τ).loc main_arg5) := (KHost.mid_arg5 (W6 m ρ c)).trans (at6_a5 m ρ c)

/-! ## At the second region's exit -/

theorem at12_out (c : Dev nD) :
    W12 m ρ c (Proc.devRef .tc main_v55) = Tiled.rowDot (Gcn.padRows Ideal (Gcn.relu Ideal (Gcn.aggregate Ideal (tiledDot (m ((c : Thread nD τ).loc main_arg0)) (m ((c : Thread nD τ).loc main_arg2))) (Gcn.srcIdx (m ((c : Thread nD τ).loc main_arg1))) (Gcn.dstIdx (m ((c : Thread nD τ).loc main_arg1))) (Gcn.edgeNorm Ideal (Gcn.srcIdx (m ((c : Thread nD τ).loc main_arg1))) (Gcn.dstIdx (m ((c : Thread nD τ).loc main_arg1)))) (m ((c : Thread nD τ).loc main_arg3))))) (Gcn.narrow Ideal (m ((c : Thread nD τ).loc main_arg4))) := by
  refine ((W12_arr m ρ c 2).trans (Tiled.final1 (V11 m ρ) c)).trans ?_
  show Tiled.rowDot (W11 m ρ c (Proc.devRef .tc main_v53)) (W11 m ρ c (Proc.devRef .tc main_v54)) = _
  rw [at11_lhs, at11_rhs]
theorem at12_src (c : Dev nD) : W12 m ρ c (Proc.devRef .tc main_v5) = Gcn.srcIdx (m ((c : Thread nD τ).loc main_arg1)) := (W12_of_ne m ρ c main_v5 (by decide)).trans (at11_src m ρ c)
theorem at12_dst (c : Dev nD) : W12 m ρ c (Proc.devRef .tc main_v6) = Gcn.dstIdx (m ((c : Thread nD τ).loc main_arg1)) := (W12_of_ne m ρ c main_v6 (by decide)).trans (at11_dst m ρ c)
theorem at12_nrm (c : Dev nD) : W12 m ρ c (Proc.devRef .tc main_v29) = Gcn.edgeNorm Ideal (Gcn.srcIdx (m ((c : Thread nD τ).loc main_arg1))) (Gcn.dstIdx (m ((c : Thread nD τ).loc main_arg1))) := (W12_of_ne m ρ c main_v29 (by decide)).trans (at11_nrm m ρ c)
theorem at12_a5 (c : Dev nD) : W12 m ρ c (Proc.devRef .tc main_arg5) = m ((c : Thread nD τ).loc main_arg5) := (W12_of_ne m ρ c main_arg5 (by decide)).trans (at11_a5 m ρ c)

/-! ## At the return -/

/-- The result buffer holds two layers of the arguments over the tiled node transform. -/
theorem result (c : Dev nD) :
    W13 m ρ c (Proc.devRef .tc main_v72)
      = Gcn.twoLayers Ideal tiledDot (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  have h := KHost.fin_out (W12 m ρ c)
  rw [at12_out, at12_src, at12_dst, at12_nrm, at12_a5] at h
  exact h

end Cert.KernelIdeal.KValue

end
-- ==== Proof.RefPieces.lean ====
import proofs.«136382_j23210003267827_1_alg».proof.Proof.RefRun
import Idealize.ShloMosaic.Lib.Pipeline.Frame

/-!
# The plain program's operations in three consecutive pieces

The plain program is a straight line of 102 array operations. It is cut here after the first edge
weights (41 operations: endpoints, degrees, the first product, the first edge weights), after the
second edge weights (42 more: the first aggregation, its positive part, the second product, the
second edge weights), and at the end (19: the second aggregation). The fold of the whole line is the
fold of the third piece over the fold of the second over the fold of the first.
-/

noncomputable section

namespace Cert.ReferenceIdeal.RefHost

open Cert.ReferenceIdeal Cert.ReferenceIdeal.Gen Idealize.ShloMosaic Idealize.ShloMosaic.TcCoe Idealize.SL.Sem Idealize.ShloMosaic.StableHlo

variable {F : FTy → Type} [FloatOps F]

/-- Operations 1–41: through the first edge weights. -/
abbrev qa : List (HloOp τ sig (Elt F)) :=
  [ nullary main_v0 (iotaInDim S100000 32 0),
    unary main_arg1 main_v1 ((extractStridedSlice S1x1600000 ![0, 0] · slices_S2x1600000_S1x1600000_0_0) : (⟨S2x1600000, .i32⟩ : BufTy).Contents (Elt F) → (⟨S1x1600000, .i32⟩ : BufTy).Contents (Elt F)),
    reshape main_v1 main_v2 rfl shapeCasts_S1x1600000_S1600000,
    binary main_v2 main_v0 main_v3 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    unary main_arg1 main_v4 ((extractStridedSlice S1x1600000 ![1, 0] · slices_S2x1600000_S1x1600000_1_0) : (⟨S2x1600000, .i32⟩ : BufTy).Contents (Elt F) → (⟨S1x1600000, .i32⟩ : BufTy).Contents (Elt F)),
    reshape main_v4 main_v5 rfl shapeCasts_S1x1600000_S1600000,
    binary main_v5 main_v0 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    nullary main_cst (constant S_ .f32 0x3F800000#32),
    unary main_cst main_v7 (broadcastInDim S1700000 ![] bcast_S_S1700000 : (⟨S_, .f32⟩ : BufTy).Contents (Elt F) → (⟨S1700000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v6 main_v9 (broadcastInDim S1700000x1 ![0] bcast_S1700000_S1700000x1_0 : (⟨S1700000, .i32⟩ : BufTy).Contents (Elt F) → (⟨S1700000x1, .i32⟩ : BufTy).Contents (Elt F)),
    ternary main_v8 main_v9 main_v7 main_v10 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_1 (constant S_ .f32 0x00000000#32),
    unary main_cst_1 main_v11 (broadcastInDim S100000 ![] bcast_S_S100000 : (⟨S_, .f32⟩ : BufTy).Contents (Elt F) → (⟨S100000, .f32⟩ : BufTy).Contents (Elt F)),
    binary main_v10 main_v11 main_v12 (cmpf .ogt : (⟨S100000, .f32⟩ : BufTy).Contents (Elt F) → (⟨S100000, .f32⟩ : BufTy).Contents (Elt F) → (⟨S100000, .i1⟩ : BufTy).Contents (Elt F)),
    unary main_v10 main_v13 (Host.rsqrt : (⟨S100000, .f32⟩ : BufTy).Contents (Elt F) → (⟨S100000, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v12) (TRef.of (T := ⟨S100000, .f32⟩) main_v13) (TRef.of (T := ⟨S100000, .f32⟩) main_call0_v1) (TRef.of (T := ⟨S100000, .f32⟩) main_v14) select,
    binary main_arg0 main_arg2 main_v15 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_c (constantI S_ 32 0#32),
    unary main_c main_v16 (broadcastInDim S1700000 ![] bcast_S_S1700000 : (⟨S_, .i32⟩ : BufTy).Contents (Elt F) → (⟨S1700000, .i32⟩ : BufTy).Contents (Elt F)),
    binary main_v3 main_v16 main_v17 (cmpi .slt : (⟨S1700000, .i32⟩ : BufTy).Contents (Elt F) → (⟨S1700000, .i32⟩ : BufTy).Contents (Elt F) → (⟨S1700000, .i1⟩ : BufTy).Contents (Elt F)),
    nullary main_c_3 (constantI S_ 32 100000#32),
    unary main_c_3 main_v18 (broadcastInDim S1700000 ![] bcast_S_S1700000 : (⟨S_, .i32⟩ : BufTy).Contents (Elt F) → (⟨S1700000, .i32⟩ : BufTy).Contents (Elt F)),
    binary main_v3 main_v18 main_v19 (addi : (⟨S1700000, .i32⟩ : BufTy).Contents (Elt F) → (⟨S1700000, .i32⟩ : BufTy).Contents (Elt F) → (⟨S1700000, .i32⟩ : BufTy).Contents (Elt F)),
    ternary main_v17 main_v19 main_v3 main_v20 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v20 main_v21 (broadcastInDim S1700000x1 ![0] bcast_S1700000_S1700000x1_0 : (⟨S1700000, .i32⟩ : BufTy).Contents (Elt F) → (⟨S1700000x1, .i32⟩ : BufTy).Contents (Elt F)),
    binary main_v14 main_v21 main_v22 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_4 (constantI S_ 32 0#32),
    unary main_c_4 main_v23 (broadcastInDim S1700000 ![] bcast_S_S1700000 : (⟨S_, .i32⟩ : BufTy).Contents (Elt F) → (⟨S1700000, .i32⟩ : BufTy).Contents (Elt F)),
    binary main_v6 main_v23 main_v24 (cmpi .slt : (⟨S1700000, .i32⟩ : BufTy).Contents (Elt F) → (⟨S1700000, .i32⟩ : BufTy).Contents (Elt F) → (⟨S1700000, .i1⟩ : BufTy).Contents (Elt F)),
    nullary main_c_5 (constantI S_ 32 100000#32),
    unary main_c_5 main_v25 (broadcastInDim S1700000 ![] bcast_S_S1700000 : (⟨S_, .i32⟩ : BufTy).Contents (Elt F) → (⟨S1700000, .i32⟩ : BufTy).Contents (Elt F)),
    binary main_v6 main_v25 main_v26 (addi : (⟨S1700000, .i32⟩ : BufTy).Contents (Elt F) → (⟨S1700000, .i32⟩ : BufTy).Contents (Elt F) → (⟨S1700000, .i32⟩ : BufTy).Contents (Elt F)),
    ternary main_v24 main_v26 main_v6 main_v27 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v27 main_v28 (broadcastInDim S1700000x1 ![0] bcast_S1700000_S1700000x1_0 : (⟨S1700000, .i32⟩ : BufTy).Contents (Elt F) → (⟨S1700000x1, .i32⟩ : BufTy).Contents (Elt F)),
    binary main_v14 main_v28 main_v29 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v22 main_v29 main_v30 (mulf : (⟨S1700000, .f32⟩ : BufTy).Contents (Elt F) → (⟨S1700000, .f32⟩ : BufTy).Contents (Elt F) → (⟨S1700000, .f32⟩ : BufTy).Contents (Elt F)) ]

/-- Operations 42–83: through the second edge weights. -/
abbrev qb : List (HloOp τ sig (Elt F)) :=
  [ nullary main_c_6 (constantI S_ 32 0#32),
    unary main_c_6 main_v31 (broadcastInDim S1700000 ![] bcast_S_S1700000 : (⟨S_, .i32⟩ : BufTy).Contents (Elt F) → (⟨S1700000, .i32⟩ : BufTy).Contents (Elt F)),
    binary main_v3 main_v31 main_v32 (cmpi .slt : (⟨S1700000, .i32⟩ : BufTy).Contents (Elt F) → (⟨S1700000, .i32⟩ : BufTy).Contents (Elt F) → (⟨S1700000, .i1⟩ : BufTy).Contents (Elt F)),
    nullary main_c_7 (constantI S_ 32 100000#32),
    unary main_c_7 main_v33 (broadcastInDim S1700000 ![] bcast_S_S1700000 : (⟨S_, .i32⟩ : BufTy).Contents (Elt F) → (⟨S1700000, .i32⟩ : BufTy).Contents (Elt F)),
    binary main_v3 main_v33 main_v34 (addi : (⟨S1700000, .i32⟩ : BufTy).Contents (Elt F) → (⟨S1700000, .i32⟩ : BufTy).Contents (Elt F) → (⟨S1700000, .i32⟩ : BufTy).Contents (Elt F)),
    ternary main_v32 main_v34 main_v3 main_v35 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v35 main_v36 (broadcastInDim S1700000x1 ![0] bcast_S1700000_S1700000x1_0 : (⟨S1700000, .i32⟩ : BufTy).Contents (Elt F) → (⟨S1700000x1, .i32⟩ : BufTy).Contents (Elt F)),
    binary main_v15 main_v36 main_v37 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v30 main_v38 (broadcastInDim S1700000x1 ![0] bcast_S1700000_S1700000x1_0 : (⟨S1700000, .f32⟩ : BufTy).Contents (Elt F) → (⟨S1700000x1, .f32⟩ : BufTy).Contents (Elt F)),
    unary main_v38 main_v39 (broadcastInDim S1700000x128 ![0, 1] bcast_S1700000x1_S1700000x128_0_1 : (⟨S1700000x1, .f32⟩ : BufTy).Contents (Elt F) → (⟨S1700000x128, .f32⟩ : BufTy).Contents (Elt F)),
    binary main_v37 main_v39 main_v40 (mulf : (⟨S1700000x128, .f32⟩ : BufTy).Contents (Elt F) → (⟨S1700000x128, .f32⟩ : BufTy).Contents (Elt F) → (⟨S1700000x128, .f32⟩ : BufTy).Contents (Elt F)),
    nullary main_cst_8 (constant S_ .f32 0x00000000#32),
    unary main_cst_8 main_v41 (broadcastInDim S100000x128 ![] bcast_S_S100000x128 : (⟨S_, .f32⟩ : BufTy).Contents (Elt F) → (⟨S100000x128, .f32⟩ : BufTy).Contents (Elt F)),
    unary main_v6 main_v42 (broadcastInDim S1700000x1 ![0] bcast_S1700000_S1700000x1_0 : (⟨S1700000, .i32⟩ : BufTy).Contents (Elt F) → (⟨S1700000x1, .i32⟩ : BufTy).Contents (Elt F)),
    ternary main_v41 main_v42 main_v40 main_v43 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    unary main_arg3 main_v44 (broadcastInDim S1x128 ![1] bcast_S128_S1x128_1 : (⟨S128, .f32⟩ : BufTy).Contents (Elt F) → (⟨S1x128, .f32⟩ : BufTy).Contents (Elt F)),
    unary main_v44 main_v45 (broadcastInDim S100000x128 ![0, 1] bcast_S1x128_S100000x128_0_1 : (⟨S1x128, .f32⟩ : BufTy).Contents (Elt F) → (⟨S100000x128, .f32⟩ : BufTy).Contents (Elt F)),
    binary main_v43 main_v45 main_v46 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x128, .f32⟩) main_call1_v0) (broadcastInDim S100000x128 ![] bcast_S_S100000x128),
    TRef.binary (TRef.of (T := ⟨S100000x128, .f32⟩) main_v46) (TRef.of (T := ⟨S100000x128, .f32⟩) main_call1_v0) (TRef.of (T := ⟨S100000x128, .f32⟩) main_v47) maximumf,
    binary main_v47 main_arg4 main_v48 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_c_9 (constantI S_ 32 0#32),
    unary main_c_9 main_v49 (broadcastInDim S1700000 ![] bcast_S_S1700000 : (⟨S_, .i32⟩ : BufTy).Contents (Elt F) → (⟨S1700000, .i32⟩ : BufTy).Contents (Elt F)),
    binary main_v3 main_v49 main_v50 (cmpi .slt : (⟨S1700000, .i32⟩ : BufTy).Contents (Elt F) → (⟨S1700000, .i32⟩ : BufTy).Contents (Elt F) → (⟨S1700000, .i1⟩ : BufTy).Contents (Elt F)),
    nullary main_c_10 (constantI S_ 32 100000#32),
    unary main_c_10 main_v51 (broadcastInDim S1700000 ![] bcast_S_S1700000 : (⟨S_, .i32⟩ : BufTy).Contents (Elt F) → (⟨S1700000, .i32⟩ : BufTy).Contents (Elt F)),
    binary main_v3 main_v51 main_v52 (addi : (⟨S1700000, .i32⟩ : BufTy).Contents (Elt F) → (⟨S1700000, .i32⟩ : BufTy).Contents (Elt F) → (⟨S1700000, .i32⟩ : BufTy).Contents (Elt F)),
    ternary main_v50 main_v52 main_v3 main_v53 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v53 main_v54 (broadcastInDim S1700000x1 ![0] bcast_S1700000_S1700000x1_0 : (⟨S1700000, .i32⟩ : BufTy).Contents (Elt F) → (⟨S1700000x1, .i32⟩ : BufTy).Contents (Elt F)),
    binary main_v14 main_v54 main_v55 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_11 (constantI S_ 32 0#32),
    unary main_c_11 main_v56 (broadcastInDim S1700000 ![] bcast_S_S1700000 : (⟨S_, .i32⟩ : BufTy).Contents (Elt F) → (⟨S1700000, .i32⟩ : BufTy).Contents (Elt F)),
    binary main_v6 main_v56 main_v57 (cmpi .slt : (⟨S1700000, .i32⟩ : BufTy).Contents (Elt F) → (⟨S1700000, .i32⟩ : BufTy).Contents (Elt F) → (⟨S1700000, .i1⟩ : BufTy).Contents (Elt F)),
    nullary main_c_12 (constantI S_ 32 100000#32),
    unary main_c_12 main_v58 (broadcastInDim S1700000 ![] bcast_S_S1700000 : (⟨S_, .i32⟩ : BufTy).Contents (Elt F) → (⟨S1700000, .i32⟩ : BufTy).Contents (Elt F)),
    binary main_v6 main_v58 main_v59 (addi : (⟨S1700000, .i32⟩ : BufTy).Contents (Elt F) → (⟨S1700000, .i32⟩ : BufTy).Contents (Elt F) → (⟨S1700000, .i32⟩ : BufTy).Contents (Elt F)),
    ternary main_v57 main_v59 main_v6 main_v60 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v60 main_v61 (broadcastInDim S1700000x1 ![0] bcast_S1700000_S1700000x1_0 : (⟨S1700000, .i32⟩ : BufTy).Contents (Elt F) → (⟨S1700000x1, .i32⟩ : BufTy).Contents (Elt F)),
    binary main_v14 main_v61 main_v62 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v55 main_v62 main_v63 (mulf : (⟨S1700000, .f32⟩ : BufTy).Contents (Elt F) → (⟨S1700000, .f32⟩ : BufTy).Contents (Elt F) → (⟨S1700000, .f32⟩ : BufTy).Contents (Elt F)) ]

/-- Operations 84–102: the second aggregation. -/
abbrev qc : List (HloOp τ sig (Elt F)) :=
  [ nullary main_c_13 (constantI S_ 32 0#32),
    unary main_c_13 main_v64 (broadcastInDim S1700000 ![] bcast_S_S1700000 : (⟨S_, .i32⟩ : BufTy).Contents (Elt F) → (⟨S1700000, .i32⟩ : BufTy).Contents (Elt F)),
    binary main_v3 main_v64 main_v65 (cmpi .slt : (⟨S1700000, .i32⟩ : BufTy).Contents (Elt F) → (⟨S1700000, .i32⟩ : BufTy).Contents (Elt F) → (⟨S1700000, .i1⟩ : BufTy).Contents (Elt F)),
    nullary main_c_14 (constantI S_ 32 100000#32),
    unary main_c_14 main_v66 (broadcastInDim S1700000 ![] bcast_S_S1700000 : (⟨S_, .i32⟩ : BufTy).Contents (Elt F) → (⟨S1700000, .i32⟩ : BufTy).Contents (Elt F)),
    binary main_v3 main_v66 main_v67 (addi : (⟨S1700000, .i32⟩ : BufTy).Contents (Elt F) → (⟨S1700000, .i32⟩ : BufTy).Contents (Elt F) → (⟨S1700000, .i32⟩ : BufTy).Contents (Elt F)),
    ternary main_v65 main_v67 main_v3 main_v68 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v68 main_v69 (broadcastInDim S1700000x1 ![0] bcast_S1700000_S1700000x1_0 : (⟨S1700000, .i32⟩ : BufTy).Contents (Elt F) → (⟨S1700000x1, .i32⟩ : BufTy).Contents (Elt F)),
    binary main_v48 main_v69 main_v70 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v63 main_v71 (broadcastInDim S1700000x1 ![0] bcast_S1700000_S1700000x1_0 : (⟨S1700000, .f32⟩ : BufTy).Contents (Elt F) → (⟨S1700000x1, .f32⟩ : BufTy).Contents (Elt F)),
    unary main_v71 main_v72 (broadcastInDim S1700000x128 ![0, 1] bcast_S1700000x1_S1700000x128_0_1 : (⟨S1700000x1, .f32⟩ : BufTy).Contents (Elt F) → (⟨S1700000x128, .f32⟩ : BufTy).Contents (Elt F)),
    binary main_v70 main_v72 main_v73 (mulf : (⟨S1700000x128, .f32⟩ : BufTy).Contents (Elt F) → (⟨S1700000x128, .f32⟩ : BufTy).Contents (Elt F) → (⟨S1700000x128, .f32⟩ : BufTy).Contents (Elt F)),
    nullary main_cst_15 (constant S_ .f32 0x00000000#32),
    unary main_cst_15 main_v74 (broadcastInDim S100000x128 ![] bcast_S_S100000x128 : (⟨S_, .f32⟩ : BufTy).Contents (Elt F) → (⟨S100000x128, .f32⟩ : BufTy).Contents (Elt F)),
    unary main_v6 main_v75 (broadcastInDim S1700000x1 ![0] bcast_S1700000_S1700000x1_0 : (⟨S1700000, .i32⟩ : BufTy).Contents (Elt F) → (⟨S1700000x1, .i32⟩ : BufTy).Contents (Elt F)),
    ternary main_v74 main_v75 main_v73 main_v76 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    unary main_arg5 main_v77 (broadcastInDim S1x128 ![1] bcast_S128_S1x128_1 : (⟨S128, .f32⟩ : BufTy).Contents (Elt F) → (⟨S1x128, .f32⟩ : BufTy).Contents (Elt F)),
    unary main_v77 main_v78 (broadcastInDim S100000x128 ![0, 1] bcast_S1x128_S100000x128_0_1 : (⟨S1x128, .f32⟩ : BufTy).Contents (Elt F) → (⟨S100000x128, .f32⟩ : BufTy).Contents (Elt F)),
    binary main_v76 main_v78 main_v79 (addf : (⟨S100000x128, .f32⟩ : BufTy).Contents (Elt F) → (⟨S100000x128, .f32⟩ : BufTy).Contents (Elt F) → (⟨S100000x128, .f32⟩ : BufTy).Contents (Elt F)) ]

set_option maxRecDepth 8192 in
/-- The line is its three pieces in a row. -/
theorem ops_split : (RunP.ops : List (HloOp τ sig (Elt F))) = qa ++ (qb ++ qc) := rfl

/-- So its fold is the pieces' folds composed. -/
theorem after_ops (V : Valuation τ sig (Elt F)) : after RunP.ops V = after qc (after qb (after qa V)) := by
  rw [ops_split, StableHlo.after_append, StableHlo.after_append]

end Cert.ReferenceIdeal.RefHost

end
-- ==== Proof.RefArgs.lean ====
import proofs.«136382_j23210003267827_1_alg».proof.Proof.RefPieces

/-!
# The plain program writes none of its arguments

None of the 102 operations has an argument buffer as its result, so each piece of the line — and hence the
whole line — leaves every argument buffer as it found it.
-/

set_option maxRecDepth 16384

noncomputable section

namespace Cert.ReferenceIdeal.RefHost

open Cert.ReferenceIdeal Cert.ReferenceIdeal.Gen Idealize.ShloMosaic Idealize.ShloMosaic.TcCoe Idealize.SL.Sem Idealize.ShloMosaic.StableHlo

variable {F : FTy → Type} [FloatOps F]

theorem qa_keeps_arg0 (V : Valuation τ sig (Elt F)) : after qa V (Proc.devRef .tc main_arg0) = V (Proc.devRef .tc main_arg0) := by
  after_results
theorem qa_keeps_arg1 (V : Valuation τ sig (Elt F)) : after qa V (Proc.devRef .tc main_arg1) = V (Proc.devRef .tc main_arg1) := by
  after_results
theorem qa_keeps_arg2 (V : Valuation τ sig (Elt F)) : after qa V (Proc.devRef .tc main_arg2) = V (Proc.devRef .tc main_arg2) := by
  after_results
theorem qa_keeps_arg3 (V : Valuation τ sig (Elt F)) : after qa V (Proc.devRef .tc main_arg3) = V (Proc.devRef .tc main_arg3) := by
  after_results
theorem qa_keeps_arg4 (V : Valuation τ sig (Elt F)) : after qa V (Proc.devRef .tc main_arg4) = V (Proc.devRef .tc main_arg4) := by
  after_results
theorem qa_keeps_arg5 (V : Valuation τ sig (Elt F)) : after qa V (Proc.devRef .tc main_arg5) = V (Proc.devRef .tc main_arg5) := by
  after_results
theorem qb_keeps_arg0 (V : Valuation τ sig (Elt F)) : after qb V (Proc.devRef .tc main_arg0) = V (Proc.devRef .tc main_arg0) := by
  after_results
theorem qb_keeps_arg1 (V : Valuation τ sig (Elt F)) : after qb V (Proc.devRef .tc main_arg1) = V (Proc.devRef .tc main_arg1) := by
  after_results
theorem qb_keeps_arg2 (V : Valuation τ sig (Elt F)) : after qb V (Proc.devRef .tc main_arg2) = V (Proc.devRef .tc main_arg2) := by
  after_results
theorem qb_keeps_arg3 (V : Valuation τ sig (Elt F)) : after qb V (Proc.devRef .tc main_arg3) = V (Proc.devRef .tc main_arg3) := by
  after_results
theorem qb_keeps_arg4 (V : Valuation τ sig (Elt F)) : after qb V (Proc.devRef .tc main_arg4) = V (Proc.devRef .tc main_arg4) := by
  after_results
theorem qb_keeps_arg5 (V : Valuation τ sig (Elt F)) : after qb V (Proc.devRef .tc main_arg5) = V (Proc.devRef .tc main_arg5) := by
  after_results
theorem qc_keeps_arg0 (V : Valuation τ sig (Elt F)) : after qc V (Proc.devRef .tc main_arg0) = V (Proc.devRef .tc main_arg0) := by
  after_results
theorem qc_keeps_arg1 (V : Valuation τ sig (Elt F)) : after qc V (Proc.devRef .tc main_arg1) = V (Proc.devRef .tc main_arg1) := by
  after_results
theorem qc_keeps_arg2 (V : Valuation τ sig (Elt F)) : after qc V (Proc.devRef .tc main_arg2) = V (Proc.devRef .tc main_arg2) := by
  after_results
theorem qc_keeps_arg3 (V : Valuation τ sig (Elt F)) : after qc V (Proc.devRef .tc main_arg3) = V (Proc.devRef .tc main_arg3) := by
  after_results
theorem qc_keeps_arg4 (V : Valuation τ sig (Elt F)) : after qc V (Proc.devRef .tc main_arg4) = V (Proc.devRef .tc main_arg4) := by
  after_results
theorem qc_keeps_arg5 (V : Valuation τ sig (Elt F)) : after qc V (Proc.devRef .tc main_arg5) = V (Proc.devRef .tc main_arg5) := by
  after_results

/-- Argument 0 is as launched after the whole line. -/
theorem ops_keeps_arg0 (V : Valuation τ sig (Elt F)) : after RunP.ops V (Proc.devRef .tc main_arg0) = V (Proc.devRef .tc main_arg0) := by
  rw [after_ops, qc_keeps_arg0, qb_keeps_arg0, qa_keeps_arg0]
/-- Argument 1 is as launched after the whole line. -/
theorem ops_keeps_arg1 (V : Valuation τ sig (Elt F)) : after RunP.ops V (Proc.devRef .tc main_arg1) = V (Proc.devRef .tc main_arg1) := by
  rw [after_ops, qc_keeps_arg1, qb_keeps_arg1, qa_keeps_arg1]
/-- Argument 2 is as launched after the whole line. -/
theorem ops_keeps_arg2 (V : Valuation τ sig (Elt F)) : after RunP.ops V (Proc.devRef .tc main_arg2) = V (Proc.devRef .tc main_arg2) := by
  rw [after_ops, qc_keeps_arg2, qb_keeps_arg2, qa_keeps_arg2]
/-- Argument 3 is as launched after the whole line. -/
theorem ops_keeps_arg3 (V : Valuation τ sig (Elt F)) : after RunP.ops V (Proc.devRef .tc main_arg3) = V (Proc.devRef .tc main_arg3) := by
  rw [after_ops, qc_keeps_arg3, qb_keeps_arg3, qa_keeps_arg3]
/-- Argument 4 is as launched after the whole line. -/
theorem ops_keeps_arg4 (V : Valuation τ sig (Elt F)) : after RunP.ops V (Proc.devRef .tc main_arg4) = V (Proc.devRef .tc main_arg4) := by
  rw [after_ops, qc_keeps_arg4, qb_keeps_arg4, qa_keeps_arg4]
/-- Argument 5 is as launched after the whole line. -/
theorem ops_keeps_arg5 (V : Valuation τ sig (Elt F)) : after RunP.ops V (Proc.devRef .tc main_arg5) = V (Proc.devRef .tc main_arg5) := by
  rw [after_ops, qc_keeps_arg5, qb_keeps_arg5, qa_keeps_arg5]

end Cert.ReferenceIdeal.RefHost

end
-- ==== Proof.RefHostA.lean ====
import proofs.«136382_j23210003267827_1_alg».proof.Proof.RefPieces
import proofs.«136382_j23210003267827_1_alg».proof.Proof.Gcn

/-!
# The plain program, first piece: endpoints, degrees, first product, first edge weights

Read from arbitrary buffer contents `V`, the first 41 operations leave the edge endpoints, the inverse
square-root degrees, the product of the node features with the first weight matrix, and the edge
weights — each the named function of what `V` held in the argument buffers — and do not write the
two biases or the second weight matrix. The array shapes of the two printed programs are the same
literals, so the functions of `Gcn` apply to this program's buffers as they stand.
-/

set_option maxRecDepth 16384

noncomputable section

namespace Cert.ReferenceIdeal.RefHost

open Cert.ReferenceIdeal Cert.ReferenceIdeal.Gen Idealize.ShloMosaic Idealize.ShloMosaic.TcCoe Idealize.SL.Sem Idealize.ShloMosaic.StableHlo

variable {F : FTy → Type} [FloatOps F]

/-- The plain matrix product of node features with a weight matrix, as the plain program states it. -/
def refDot (x : FVec F S100000x128 .f32) (w : FVec F S128x128 .f32) : FVec F S100000x128 .f32 :=
  Host.dotGeneral dot_S100000x128_S128x128_S100000x128_1_0_0_1_n_n none x w

theorem qa_src (V : Valuation τ sig (Elt F)) :
    after qa V (Proc.devRef .tc main_v3) = Cert.KernelIdeal.Gcn.srcIdx (V (Proc.devRef .tc main_arg1)) := by
  after_results
  rfl

theorem qa_dst (V : Valuation τ sig (Elt F)) :
    after qa V (Proc.devRef .tc main_v6) = Cert.KernelIdeal.Gcn.dstIdx (V (Proc.devRef .tc main_arg1)) := by
  after_results
  rfl

set_option maxHeartbeats 4000000 in
theorem qa_dinv (V : Valuation τ sig (Elt F)) :
    after qa V (Proc.devRef .tc main_v14)
      = Cert.KernelIdeal.Gcn.degInv F (Cert.KernelIdeal.Gcn.dstIdx (V (Proc.devRef .tc main_arg1))) := by
  after_results
  rfl

theorem qa_dot (V : Valuation τ sig (Elt F)) :
    after qa V (Proc.devRef .tc main_v15) = refDot (V (Proc.devRef .tc main_arg0)) (V (Proc.devRef .tc main_arg2)) := by
  after_results
  rfl

set_option maxHeartbeats 4000000 in
theorem qa_norm (V : Valuation τ sig (Elt F)) :
    after qa V (Proc.devRef .tc main_v30)
      = Cert.KernelIdeal.Gcn.edgeNorm F (Cert.KernelIdeal.Gcn.srcIdx (V (Proc.devRef .tc main_arg1)))
          (Cert.KernelIdeal.Gcn.dstIdx (V (Proc.devRef .tc main_arg1))) := by
  after_results
  rfl

theorem qa_arg3 (V : Valuation τ sig (Elt F)) : after qa V (Proc.devRef .tc main_arg3) = V (Proc.devRef .tc main_arg3) := by
  after_results
theorem qa_arg4 (V : Valuation τ sig (Elt F)) : after qa V (Proc.devRef .tc main_arg4) = V (Proc.devRef .tc main_arg4) := by
  after_results
theorem qa_arg5 (V : Valuation τ sig (Elt F)) : after qa V (Proc.devRef .tc main_arg5) = V (Proc.devRef .tc main_arg5) := by
  after_results

end Cert.ReferenceIdeal.RefHost

end
-- ==== Proof.RefHostB.lean ====
import proofs.«136382_j23210003267827_1_alg».proof.Proof.RefHostA
import proofs.«136382_j23210003267827_1_alg».proof.Proof.Gcn

/-!
# The plain program, second piece: first aggregation, second product, second edge weights

Read from arbitrary buffer contents `V`, operations 42–83 leave the product of the first layer's output
(the aggregation of the first product, its positive part) with the second weight matrix, and the edge
weights recomputed from the inverse square-root degrees; they do not write the endpoints or the second bias.
-/

set_option maxRecDepth 16384

noncomputable section

namespace Cert.ReferenceIdeal.RefHost

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 4000000 in
theorem qb_dot (V : Valuation τ sig (Elt F)) :
    after qb V (Proc.devRef .tc main_v48)
      = refDot (Cert.KernelIdeal.Gcn.relu F (Cert.KernelIdeal.Gcn.aggregate F (V (Proc.devRef .tc main_v15))
          (V (Proc.devRef .tc main_v3)) (V (Proc.devRef .tc main_v6)) (V (Proc.devRef .tc main_v30))
          (V (Proc.devRef .tc main_arg3)))) (V (Proc.devRef .tc main_arg4)) := by
  after_results
  rfl

set_option maxHeartbeats 4000000 in
theorem qb_norm (V : Valuation τ sig (Elt F)) :
    after qb V (Proc.devRef .tc main_v63)
      = Cert.KernelIdeal.Gcn.edgeNormOf F (V (Proc.devRef .tc main_v14)) (V (Proc.devRef .tc main_v3))
          (V (Proc.devRef .tc main_v6)) := by
  after_results
  rfl

theorem qb_src (V : Valuation τ sig (Elt F)) : after qb V (Proc.devRef .tc main_v3) = V (Proc.devRef .tc main_v3) := by
  after_results
theorem qb_dst (V : Valuation τ sig (Elt F)) : after qb V (Proc.devRef .tc main_v6) = V (Proc.devRef .tc main_v6) := by
  after_results
theorem qb_arg5 (V : Valuation τ sig (Elt F)) : after qb V (Proc.devRef .tc main_arg5) = V (Proc.devRef .tc main_arg5) := by
  after_results

end Cert.ReferenceIdeal.RefHost

end
-- ==== Proof.RefHostC.lean ====
import proofs.«136382_j23210003267827_1_alg».proof.Proof.RefPieces
import proofs.«136382_j23210003267827_1_alg».proof.Proof.Gcn

/-!
# The plain program, third piece: the second aggregation

Read from arbitrary buffer contents `V`, the last 19 operations leave in the result buffer the
aggregation of the second product along the edges, plus the second bias.
-/

set_option maxRecDepth 16384

noncomputable section

namespace Cert.ReferenceIdeal.RefHost

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 4000000 in
theorem qc_out (V : Valuation τ sig (Elt F)) :
    after qc V (Proc.devRef .tc main_v79)
      = Cert.KernelIdeal.Gcn.aggregate F (V (Proc.devRef .tc main_v48)) (V (Proc.devRef .tc main_v3))
          (V (Proc.devRef .tc main_v6)) (V (Proc.devRef .tc main_v63)) (V (Proc.devRef .tc main_arg5)) := by
  after_results
  rfl

end Cert.ReferenceIdeal.RefHost

end
-- ==== Proof.RefValue.lean ====
import proofs.«136382_j23210003267827_1_alg».proof.Proof.RefHostA
import proofs.«136382_j23210003267827_1_alg».proof.Proof.RefHostB
import proofs.«136382_j23210003267827_1_alg».proof.Proof.RefHostC
import proofs.«136382_j23210003267827_1_alg».proof.Proof.GcnLayers

/-!
# What the plain program leaves in its result buffer

The three pieces composed: the result buffer holds `twoLayers` of the launch contents of the arguments with
the plain matrix product `refDot` as the node transform. The second layer's edge weights, which the plain
program computes afresh from the inverse square-root degrees, are the first layer's.
-/

set_option maxRecDepth 16384

noncomputable section

namespace Cert.ReferenceIdeal.RefHost

open Cert.ReferenceIdeal Cert.ReferenceIdeal.Gen Idealize.ShloMosaic Idealize.ShloMosaic.TcCoe Idealize.SL.Sem Idealize.ShloMosaic.StableHlo

variable {F : FTy → Type} [FloatOps F]

/-- The result buffer after the whole line holds two layers of the arguments over the plain product. -/
theorem result (m : (ℓ : Loc nD τ sig) → Buf (Elt F) ℓ) (c : Dev nD) :
    after RunP.ops (launchContents m c) (Proc.devRef .tc main_v79)
      = Cert.KernelIdeal.Gcn.twoLayers F refDot (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  rw [after_ops]
  have hc := qc_out (after qb (after qa (launchContents m c)))
  rw [qb_dot, qb_src, qb_dst, qb_norm, qb_arg5] at hc
  rw [qa_dot, qa_src, qa_dst, qa_norm, qa_arg3, qa_arg4, qa_dinv, qa_arg5] at hc
  exact hc

end Cert.ReferenceIdeal.RefHost

end
-- ==== Proof.Bridge.lean ====
/- The tiled product against the plain one.

   The tiled program multiplies the node features, extended below by 2400 fill rows and narrowed to 16 bits, by the
   narrowed weight matrix, and keeps the first 100000 rows of the result. Over the extended reals narrowing changes
   nothing and a row above the fill is a row of the node features, so each kept entry is the sum over the 128 columns
   of a feature entry times a weight entry: the plain product of the two matrices. -/
import proofs.«136382_j23210003267827_1_alg».proof.Proof.TileMatmul
import proofs.«136382_j23210003267827_1_alg».proof.Proof.Gcn
import proofs.«136382_j23210003267827_1_alg».proof.Proof.RefHostA
import Idealize.ShloMosaic.Lib.KernelVsHost
import Idealize.ShloMosaic.Lib.ValueIdx
import Idealize.ShloMosaic.Lib.Pipeline.Value
import Idealize.ShloMosaic.PureOps.Ideal.Laws

noncomputable section

namespace Cert.Bridge

open Idealize.ShloMosaic Idealize.ShloMosaic.ValueIdx
open Cert.KernelIdeal.Tiled (rowDot rowDot_apply bigIx sqIx)

/-- Entry (r, k) of a 100000 × 128 matrix. -/
abbrev topIx (r : Fin 100000) (k : Fin 128) : Cert.KernelIdeal.S100000x128.Idx :=
  fun a => match a with | ⟨0, _⟩ => ⟨r.val, r.isLt⟩ | ⟨1, _⟩ => ⟨k.val, k.isLt⟩

/-- Row r < 100000 of the 102400-row array. -/
abbrev underRow (r : Fin 100000) : Fin 102400 := ⟨r.val, Nat.lt_trans r.isLt (by decide)⟩

/-- A kept entry of the tiled product: the slice starts at the origin, so it is the product's entry at the same place;
    there the left factor's row lies above the fill rows, so it is the node features' row, and narrowing either
    factor changes nothing. -/
theorem tiled_apply (x : FVec Ideal Cert.KernelIdeal.S100000x128 .f32) (w : FVec Ideal Cert.KernelIdeal.S128x128 .f32)
    (i : Cert.KernelIdeal.S100000x128.Idx) :
    Cert.KernelIdeal.Gcn.topRows Ideal (rowDot (Cert.KernelIdeal.Gcn.padRows Ideal x) (Cert.KernelIdeal.Gcn.narrow Ideal w)) i
      = ∑ k : Fin 128, x (topIx (i 0) k) * w (sqIx k (i 1)) := by
  unfold Cert.KernelIdeal.Gcn.topRows
  rw [extractStridedSlice_apply ![0, 0] _ _ i (bigIx (underRow (i 0)) (i 1)) (fun a => by
      match a with
      | ⟨0, _⟩ => show (i 0).val = 0 + (i 0).val; omega
      | ⟨1, _⟩ => show (i 1).val = 0 + (i 1).val; omega)]
  rw [rowDot_apply]
  refine Finset.sum_congr rfl fun k _ => ?_
  unfold Cert.KernelIdeal.Gcn.padRows Cert.KernelIdeal.Gcn.narrow
  rw [truncf_apply, truncf_apply]
  rw [pad_apply_of_inside _ _ _ x _ _ _ _ (topIx (i 0) k) (fun a => by
      match a with
      | ⟨0, _⟩ => show (i 0).val = 0 + (i 0).val * (0 + 1); omega
      | ⟨1, _⟩ => show k.val = 0 + k.val * (0 + 1); omega)]

/-- An entry of the plain product: the contraction runs over the one shared axis, so its index is that axis's
    coordinate; the left index takes its row from the result and its column from the contraction, the right index its
    row from the contraction and its column from the result. -/
theorem plain_apply (x : FVec Ideal Cert.KernelIdeal.S100000x128 .f32) (w : FVec Ideal Cert.KernelIdeal.S128x128 .f32)
    (i : Cert.KernelIdeal.S100000x128.Idx) :
    Cert.ReferenceIdeal.RefHost.refDot (F := Ideal) x w i = ∑ k : Fin 128, x (topIx (i 0) k) * w (sqIx k (i 1)) := by
  unfold Cert.ReferenceIdeal.RefHost.refDot
  simp only [Host.dotGeneral]
  rw [Ideal.dotGeneral_apply, ← Equiv.sum_comp (contrEquiv1 Cert.ReferenceIdeal.dot_S100000x128_S128x128_S100000x128_1_0_0_1_n_n 128 rfl rfl).symm]
  refine Finset.sum_congr rfl fun k _ => ?_
  have ck := contrEquiv1_symm_val Cert.ReferenceIdeal.dot_S100000x128_S128x128_S100000x128_1_0_0_1_n_n 128 rfl rfl k
  have hl : Cert.ReferenceIdeal.dot_S100000x128_S128x128_S100000x128_1_0_0_1_n_n.lhsIdx i
      ((contrEquiv1 Cert.ReferenceIdeal.dot_S100000x128_S128x128_S100000x128_1_0_0_1_n_n 128 rfl rfl).symm k) = topIx (i 0) k :=
    funext fun a => Fin.ext (by
      match a with
      | ⟨0, _⟩ =>
        show (Cert.ReferenceIdeal.dot_S100000x128_S128x128_S100000x128_1_0_0_1_n_n.lhsIdx i _ (0 : Fin 2)).val = (i 0).val
        unfold DotDims.lhsIdx; rw [dif_neg (by decide), dif_pos (by decide)]; rfl
      | ⟨1, _⟩ =>
        show (Cert.ReferenceIdeal.dot_S100000x128_S128x128_S100000x128_1_0_0_1_n_n.lhsIdx i _ (1 : Fin 2)).val = k.val
        rw [Cert.ReferenceIdeal.dot_S100000x128_S128x128_S100000x128_1_0_0_1_n_n.lhsIdx_val_of_single (cl := (1 : Fin 2)) rfl]; exact ck)
  have hr : Cert.ReferenceIdeal.dot_S100000x128_S128x128_S100000x128_1_0_0_1_n_n.rhsIdx i
      ((contrEquiv1 Cert.ReferenceIdeal.dot_S100000x128_S128x128_S100000x128_1_0_0_1_n_n 128 rfl rfl).symm k) = sqIx k (i 1) :=
    funext fun a => Fin.ext (by
      match a with
      | ⟨0, _⟩ =>
        show (Cert.ReferenceIdeal.dot_S100000x128_S128x128_S100000x128_1_0_0_1_n_n.rhsIdx i _ (0 : Fin 2)).val = k.val
        rw [Cert.ReferenceIdeal.dot_S100000x128_S128x128_S100000x128_1_0_0_1_n_n.rhsIdx_val_of_single (cr := (0 : Fin 2)) rfl]; exact ck
      | ⟨1, _⟩ =>
        show (Cert.ReferenceIdeal.dot_S100000x128_S128x128_S100000x128_1_0_0_1_n_n.rhsIdx i _ (1 : Fin 2)).val = (i 1).val
        unfold DotDims.rhsIdx; rw [dif_neg (by decide), dif_pos (by decide)]; rfl)
  rw [hl, hr]

/-- The first 100000 rows of the tiled product of the extended, narrowed node features with the narrowed weight matrix
    are the plain product of the node features with the weight matrix: entry by entry both are the same sum over the
    128 shared coordinates. -/
theorem topRows_rowDot (x : FVec Ideal Cert.KernelIdeal.S100000x128 .f32) (w : FVec Ideal Cert.KernelIdeal.S128x128 .f32) :
    Cert.KernelIdeal.Gcn.topRows Ideal (Cert.KernelIdeal.Tiled.rowDot (Cert.KernelIdeal.Gcn.padRows Ideal x) (Cert.KernelIdeal.Gcn.narrow Ideal w))
      = Cert.ReferenceIdeal.RefHost.refDot (F := Ideal) x w :=
  funext fun i => (tiled_apply x w i).trans (plain_apply x w i).symm

end Cert.Bridge

end
-- ==== Proof.lean ====
/-
  Two graph-convolution layers, `out = Â·relu(Â·(X W₁) + b₁)·W₂ + b₂` with `Â` the symmetrically normalised
  adjacency (self loops added) of an edge list: a program that computes each product `X W` by a pipelined
  kernel over 25 row blocks of the zero-extended, 16-bit-narrowed operand, against the plain program that
  states it as one matrix product.

  Over the extended reals a change of float format is the identity and a block product into a zero
  accumulator is the exact sum over the contracted axis, so the kernel's output array, read block by block
  and then as a whole (`Tiled.final0`, `Tiled.final1`), is the row-by-row product of the padded operand; its
  first 100000 rows are the plain product (`Bridge.topRows_rowDot`: a row below 100000 of the padded array is
  the operand's row). Everything else — the edge endpoints, the degrees and edge weights, the gather, the
  scatter-add, the bias, the positive part — is the same array arithmetic in both programs, named once in
  `Gcn` and read off each program's straight-line operations (`KValue.result`, `RefHost.result`). So both
  result buffers hold `Gcn.twoLayers` of the same arguments, over two node transforms that are equal.
  No finiteness is used: only the exact sum on both sides.

  The frames: the two kernel programs' by their launch-to-return segment run; the plain program's by its
  straight-line run, none of whose operations writes an argument. No operation was rewritten between the
  kernel and its idealization, so that claim is empty.
-/
import proofs.«136382_j23210003267827_1_alg».proof.Defs
import proofs.«136382_j23210003267827_1_alg».proof.Proof.Gen.Kernel
import proofs.«136382_j23210003267827_1_alg».proof.Proof.Gen.Kernel.Skeleton
import proofs.«136382_j23210003267827_1_alg».proof.Proof.Gen.Kernel.Launch
import proofs.«136382_j23210003267827_1_alg».proof.Proof.Gen.Kernel.Points
import proofs.«136382_j23210003267827_1_alg».proof.Proof.Gen.Kernel.Frame
import proofs.«136382_j23210003267827_1_alg».proof.Proof.Gen.KernelIdeal
import proofs.«136382_j23210003267827_1_alg».proof.Proof.Gen.KernelIdeal.Skeleton
import proofs.«136382_j23210003267827_1_alg».proof.Proof.Gen.KernelIdeal.Launch
import proofs.«136382_j23210003267827_1_alg».proof.Proof.Gen.KernelIdeal.Points
import proofs.«136382_j23210003267827_1_alg».proof.Proof.Gen.KernelIdeal.Frame
import proofs.«136382_j23210003267827_1_alg».proof.Proof.Gen.ReferenceIdeal
import proofs.«136382_j23210003267827_1_alg».proof.Proof.Gen.Pre_finite_inputs
import proofs.«136382_j23210003267827_1_alg».proof.Proof.KernelRun
import proofs.«136382_j23210003267827_1_alg».proof.Proof.KernelValue
import proofs.«136382_j23210003267827_1_alg».proof.Proof.RefArgs
import proofs.«136382_j23210003267827_1_alg».proof.Proof.RefValue
import proofs.«136382_j23210003267827_1_alg».proof.Proof.Bridge
import Idealize.ShloMosaic.Adequacy
import Idealize.ShloMosaic.Init

noncomputable section

namespace Cert.Proof

open Idealize.ShloMosaic Idealize.SL.Sem

/-- The word-level kernel program runs and keeps its arguments. -/
theorem frame_kernel : Cert.frame_Kernel := fun m ρ _ => Cert.Kernel.Gen.frame m ρ

/-- The idealized kernel program runs and keeps its arguments. -/
theorem frame_kernelIdeal : Cert.frame_KernelIdeal := fun m ρ _ => Cert.KernelIdeal.Gen.frame m ρ

/-- The plain program runs, and none of its operations writes an argument. -/
theorem frame_reference : Cert.frame_ReferenceIdeal := fun m ρ _ =>
  (θ_run Cert.ReferenceIdeal.defs _ _).mono (fun _ h c =>
      ⟨(h c Cert.ReferenceIdeal.main_arg0).trans (Cert.ReferenceIdeal.RefHost.ops_keeps_arg0 _),
       (h c Cert.ReferenceIdeal.main_arg1).trans (Cert.ReferenceIdeal.RefHost.ops_keeps_arg1 _),
       (h c Cert.ReferenceIdeal.main_arg2).trans (Cert.ReferenceIdeal.RefHost.ops_keeps_arg2 _),
       (h c Cert.ReferenceIdeal.main_arg3).trans (Cert.ReferenceIdeal.RefHost.ops_keeps_arg3 _),
       (h c Cert.ReferenceIdeal.main_arg4).trans (Cert.ReferenceIdeal.RefHost.ops_keeps_arg4 _),
       (h c Cert.ReferenceIdeal.main_arg5).trans (Cert.ReferenceIdeal.RefHost.ops_keeps_arg5 _)⟩)
    (Cert.ReferenceIdeal.RunP.run_all (F := Ideal) m ρ)

/-- The idealization rewrote no operation. -/
theorem preserves : Cert.preserves_Kernel_KernelIdeal := trivial

/-- The tiled node transform is the plain matrix product. -/
theorem tiledDot_eq : Cert.KernelIdeal.KValue.tiledDot = Cert.ReferenceIdeal.RefHost.refDot (F := Ideal) :=
  funext fun x => funext fun w => Cert.Bridge.topRows_rowDot x w

/-- Both programs end with `twoLayers` of the same arguments in their result buffers, over equal node transforms. -/
theorem algebraic : Cert.algebraic_KernelIdeal_ReferenceIdeal := by
  intro m ρ m' ρ' _ hagree
  refine ⟨fun c => Cert.KernelIdeal.Gcn.twoLayers Ideal Cert.KernelIdeal.KValue.tiledDot
      (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.KValue.result m ρ c), (h c).2⟩)
      (Cert.KernelIdeal.KRun.run_out m ρ)
  · refine (θ_run Cert.ReferenceIdeal.defs _ _).mono (fun _ h c =>
        ⟨(h c Cert.ReferenceIdeal.main_v79).trans ((Cert.ReferenceIdeal.RefHost.result m' c).trans ?_),
         (h c Cert.ReferenceIdeal.main_arg0).trans (Cert.ReferenceIdeal.RefHost.ops_keeps_arg0 _),
         (h c Cert.ReferenceIdeal.main_arg1).trans (Cert.ReferenceIdeal.RefHost.ops_keeps_arg1 _),
         (h c Cert.ReferenceIdeal.main_arg2).trans (Cert.ReferenceIdeal.RefHost.ops_keeps_arg2 _),
         (h c Cert.ReferenceIdeal.main_arg3).trans (Cert.ReferenceIdeal.RefHost.ops_keeps_arg3 _),
         (h c Cert.ReferenceIdeal.main_arg4).trans (Cert.ReferenceIdeal.RefHost.ops_keeps_arg4 _),
         (h c Cert.ReferenceIdeal.main_arg5).trans (Cert.ReferenceIdeal.RefHost.ops_keeps_arg5 _)⟩)
      (Cert.ReferenceIdeal.RunP.run_all (F := Ideal) m' ρ')
    rw [(hagree c).1, (hagree c).2.1, (hagree c).2.2.1, (hagree c).2.2.2.1, (hagree c).2.2.2.2.1, (hagree c).2.2.2.2.2,
      tiledDot_eq]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
